-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S10x128 : Shape := ⟨2, ![10, 128]⟩
abbrev S_ : Shape := ⟨0, ![]⟩

class Facts : Prop where
  bcast_S_S1x10000x128 : S_.BroadcastsInDim S1x10000x128 (![] : Fin 0 → Fin S1x10000x128.rank)
  reducesTo_S1x10000x128_S_d0_1_2 : S1x10000x128.ReducesTo [0, 1, 2] S_
  h_S_ : 0 < S_.numel
  bcast_S_S1x10000x10000 : S_.BroadcastsInDim S1x10000x10000 (![] : Fin 0 → Fin S1x10000x10000.rank)
  reducesTo_S1x10000x10000_S_d0_1_2 : S1x10000x10000.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S10x128 : S_.BroadcastsInDim S10x128 (![] : Fin 0 → Fin S10x128.rank)
  reducesTo_S10x128_S_d0_1 : S10x128.ReducesTo [0, 1] S_

variable [Facts]

def fn_part1 {F : FTy → Type} [FloatOps F] (main_arg4 : FVec F S128x128 .f32) (main_arg5 : FVec F S10x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S10x128 .f32 := Host.absf main_arg5
  let main_cst_8 : FVec F S_ .f32 := constant S_ .f32 0x7F800000#32
  let main_v25 : FVec F S10x128 .f32 := broadcastInDim S10x128 ![] bcast_S_S10x128 main_cst_8
  let main_v26 : IVec S10x128 1 := cmpf .olt main_v24 main_v25
  let main_c_9 : IVec S_ 1 := constantI S_ 1 1#1
  let main_v27 : IVec S_ 1 := (fun x v => Host.reduce IntOp.andi x v reducesTo_S10x128_S_d0_1 h_S_) main_v26 main_c_9
  let main_v28 : IVec S_ 1 := andi main_v23 main_v27
  main_v28

def fn {F : FTy → Type} [FloatOps F] (main_arg0 : FVec F S1x10000x128 .f32) (main_arg1 : FVec F S1x10000x10000 .f32) (main_arg2 : FVec F S128x128 .f32) (main_arg3 : FVec F S128 .f32) (main_arg4 : FVec F S128x128 .f32) (main_arg5 : FVec F S10x128 .f32) : IVec S_ 1 :=
  let main_v0 : FVec F S1x10000x128 .f32 := Host.absf main_arg0
  let main_cst : FVec F S_ .f32 := constant S_ .f32 0x7F800000#32
  let main_v1 : FVec F S1x10000x128 .f32 := broadcastInDim S1x10000x128 ![] bcast_S_S1x10000x128 main_cst
  let main_v2 : IVec S1x10000x128 1 := cmpf .olt main_v0 main_v1
  let main_c : IVec S_ 1 := constantI S_ 1 1#1
  let main_v3 : IVec S_ 1 := (fun x v => Host.reduce IntOp.andi x v reducesTo_S1x10000x128_S_d0_1_2 h_S_) main_v2 main_c
  let main_v4 : FVec F S1x10000x10000 .f32 := Host.absf main_arg1
  let main_cst_0 : FVec F S_ .f32 := constant S_ .f32 0x7F800000#32
  let main_v5 : FVec F S1x10000x10000 .f32 := broadcastInDim S1x10000x10000 ![] bcast_S_S1x10000x10000 main_cst_0
  let main_v6 : IVec S1x10000x10000 1 := cmpf .olt main_v4 main_v5
  let main_c_1 : IVec S_ 1 := constantI S_ 1 1#1
  let main_v7 : IVec S_ 1 := (fun x v => Host.reduce IntOp.andi x v reducesTo_S1x10000x10000_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S10x128 : Shape := ⟨2, ![10, 128]⟩
abbrev S10000x128 : Shape := ⟨2, ![10000, 128]⟩
abbrev S10000x10000 : Shape := ⟨2, ![10000, 10000]⟩
abbrev S1x128 : Shape := ⟨2, ![1, 128]⟩
abbrev S10000x10 : Shape := ⟨2, ![10000, 10]⟩
abbrev S400x10000 : Shape := ⟨2, ![400, 10000]⟩
abbrev S400x128 : Shape := ⟨2, ![400, 128]⟩
abbrev S10000 : Shape := ⟨1, ![10000]⟩
abbrev S10000x1 : Shape := ⟨2, ![10000, 1]⟩
abbrev S10 : Shape := ⟨1, ![10]⟩
abbrev S1x10 : Shape := ⟨2, ![1, 10]⟩

abbrev nBuf : Space → Nat
  | .hbm => 11
  | .vmem => 11
  | .smem => 0
  | _ => 0

abbrev bufTy : (tb : Table) → Fin (tcTables nBuf tb) → BufTy
  | .hbm, ⟨0, _⟩ => ⟨S1x10000x128, .f32⟩
  | .hbm, ⟨1, _⟩ => ⟨S1x10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S10x128, .f32⟩
  | .hbm, ⟨6, _⟩ => ⟨S10000x128, .f32⟩
  | .hbm, ⟨7, _⟩ => ⟨S10000x10000, .f32⟩
  | .hbm, ⟨8, _⟩ => ⟨S1x128, .f32⟩
  | .hbm, ⟨9, _⟩ => ⟨S10000x128, .f32⟩
  | .hbm, ⟨10, _⟩ => ⟨S10000x10, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x128, .f32⟩
  | .local _ .vmem, ⟨4, _⟩ => ⟨S1x128, .f32⟩
  | .local _ .vmem, ⟨5, _⟩ => ⟨S128x128, .f32⟩
  | .local _ .vmem, ⟨6, _⟩ => ⟨S10x128, .f32⟩
  | .local _ .vmem, ⟨7, _⟩ => ⟨S400x128, .f32⟩
  | .local _ .vmem, ⟨8, _⟩ => ⟨S400x128, .f32⟩
  | .local _ .vmem, ⟨9, _⟩ => ⟨S10000x10, .f32⟩
  | .local _ .vmem, ⟨10, _⟩ => ⟨S10000x128, .f32⟩
  | _, _ => ⟨S1x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9

abbrev nD : Nat := 1
abbrev τ : Topo := Topo.v7x

variable {F : FTy → Type} [FloatOps F]

abbrev grid0 : Pipeline.Grid := ⟨1, ![25], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S10000x10 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

class Facts₀ : Prop where
  shapeCasts_S1x10000x128_S10000x128 : S1x10000x128.ShapeCasts S10000x128
  shapeCasts_S1x10000x10000_S10000x10000 : S1x10000x10000.ShapeCasts S10000x10000
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10x128_S10x128_0_0 : ∀ a, (![0, 0] : Fin 2 → Nat) a + S10x128.size a ≤ S10x128.size a
  h_S10x128 : 0 < S10x128.numel
  reduces_S10000x128_S10000 : S10000x128.Reduces [1] S10000
  shapeCasts_S10000_S10000x1 : S10000.ShapeCasts S10000x1
  reduces_S10x128_S10 : S10x128.Reduces [1] S10
  shapeCasts_S10_S1x10 : S10.ShapeCasts S1x10
  broadcasts_S10000x1_S10000x10 : S10000x1.Broadcasts S10000x10
  broadcasts_S1x10_S10000x10 : S1x10.Broadcasts S10000x10
  reduces_S10000x10_S10000 : S10000x10.Reduces [1] S10000
  inb_S10000x10_S10000x10_0_0 : ∀ a, (![0, 0] : Fin 2 → Nat) a + S10000x10.size a ≤ S10000x10.size a
  h_S10000x10 : 0 < S10000x10.numel
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  bitsLt_bf16_f32 : FTy.bits .bf16 < FTy.bits .f32
  inb_S400x128_S400x128_0_0 : ∀ a, (![0, 0] : Fin 2 → Nat) a + S400x128.size a ≤ S400x128.size a
  h_S400x128 : 0 < S400x128.numel
  dot_S10000x128_S128x128_S10000x128_1_0_0_1_n_n_wf : DotDims.WF S10000x128 S128x128 S10000x128 [1] [0] [0] [1] [] []
  dot_S10000x128_S10x128_S10000x10_1_1_0_0_n_n_wf : DotDims.WF S10000x128 S10x128 S10000x10 [1] [1] [0] [0] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10x128.size a ≤ S10x128.size a
  hwx0_5 : ∀ i : grid0.Coords, EltTy.bits .f32 = 32 ∨ (Rect.block (s := S10x128) S10x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S10000x128.size a
  hwx0_6 : ∀ i : grid0.Coords, EltTy.bits .f32 = 32 ∨ (Rect.block (s := S10000x128) S400x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S10000x10.size a ≤ S10000x10.size a
  hwx0_7 : ∀ i : grid0.Coords, EltTy.bits .f32 = 32 ∨ (Rect.block (s := S10000x10) S10000x10.size (cc0_transform_7 i) (hinb0_7 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S10x128_S10000x10_1_1_0_0_n_n : DotDims S10000x128 S10x128 S10000x10 where
  lhsContracting := [1]
  rhsContracting := [1]
  lhsNonContracting := [0]
  rhsNonContracting := [0]
  lhsBatch := []
  rhsBatch := []
  wf := dot_S10000x128_S10x128_S10000x10_1_1_0_0_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_v0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S10x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3_0) S400x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3_1) S10000x10.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond1 i == 1#1) | ⟨_ + 8, h⟩ => absurd h (Nat.not_lt.2 (Nat.le_add_left _ _))

class Facts : Prop extends Facts₀ where

variable [Facts]
-- ==== ReferenceIdeal.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S10x128 : Shape := ⟨2, ![10, 128]⟩
abbrev S10000x128 : Shape := ⟨2, ![10000, 128]⟩
abbrev S10000x10000 : Shape := ⟨2, ![10000, 10000]⟩
abbrev S1x128 : Shape := ⟨2, ![1, 128]⟩
abbrev S128x10 : Shape := ⟨2, ![128, 10]⟩
abbrev S10000x10 : Shape := ⟨2, ![10000, 10]⟩
abbrev S_ : Shape := ⟨0, ![]⟩
abbrev S10000 : Shape := ⟨1, ![10000]⟩
abbrev S10000x1 : Shape := ⟨2, ![10000, 1]⟩
abbrev S10 : Shape := ⟨1, ![10]⟩
abbrev S10x1 : Shape := ⟨2, ![10, 1]⟩
abbrev S1x10 : Shape := ⟨2, ![1, 10]⟩

abbrev nBuf : Space → Nat
  | .hbm => 49
  | .vmem => 0
  | .smem => 0
  | _ => 0

abbrev bufTy : (tb : Table) → Fin (tcTables nBuf tb) → BufTy
  | .hbm, ⟨0, _⟩ => ⟨S1x10000x128, .f32⟩
  | .hbm, ⟨1, _⟩ => ⟨S1x10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S10x128, .f32⟩
  | .hbm, ⟨6, _⟩ => ⟨S10000x128, .f32⟩
  | .hbm, ⟨7, _⟩ => ⟨S10000x10000, .f32⟩
  | .hbm, ⟨8, _⟩ => ⟨S10000x128, .f32⟩
  | .hbm, ⟨9, _⟩ => ⟨S1x128, .f32⟩
  | .hbm, ⟨10, _⟩ => ⟨S10000x128, .f32⟩
  | .hbm, ⟨11, _⟩ => ⟨S10000x128, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S128x10, .f32⟩
  | .hbm, ⟨16, _⟩ => ⟨S10000x10, .f32⟩
  | .hbm, ⟨17, _⟩ => ⟨S10000x128, .f32⟩
  | .hbm, ⟨18, _⟩ => ⟨S_, .f32⟩
  | .hbm, ⟨19, _⟩ => ⟨S10000, .f32⟩
  | .hbm, ⟨20, _⟩ => ⟨S10000x1, .f32⟩
  | .hbm, ⟨21, _⟩ => ⟨S10000x1, .f32⟩
  | .hbm, ⟨22, _⟩ => ⟨S10x128, .f32⟩
  | .hbm, ⟨23, _⟩ => ⟨S_, .f32⟩
  | .hbm, ⟨24, _⟩ => ⟨S10, .f32⟩
  | .hbm, ⟨25, _⟩ => ⟨S10x1, .f32⟩
  | .hbm, ⟨26, _⟩ => ⟨S10x1, .f32⟩
  | .hbm, ⟨27, _⟩ => ⟨S1x10, .f32⟩
  | .hbm, ⟨28, _⟩ => ⟨S10000x10, .f32⟩
  | .hbm, ⟨29, _⟩ => ⟨S10000x10, .f32⟩
  | .hbm, ⟨30, _⟩ => ⟨S10000x10, .f32⟩
  | .hbm, ⟨31, _⟩ => ⟨S_, .f32⟩
  | .hbm, ⟨32, _⟩ => ⟨S10000x10, .f32⟩
  | .hbm, ⟨33, _⟩ => ⟨S10000x10, .f32⟩
  | .hbm, ⟨34, _⟩ => ⟨S10000x10, .f32⟩
  | .hbm, ⟨35, _⟩ => ⟨S_, .f32⟩
  | .hbm, ⟨36, _⟩ => ⟨S10000, .f32⟩
  | .hbm, ⟨37, _⟩ => ⟨S_, .f32⟩
  | .hbm, ⟨38, _⟩ => ⟨S10000, .f32⟩
  | .hbm, ⟨39, _⟩ => ⟨S10000, .f32⟩
  | .hbm, ⟨40, _⟩ => ⟨S10000x1, .f32⟩
  | .hbm, ⟨41, _⟩ => ⟨S10000x10, .f32⟩
  | .hbm, ⟨42, _⟩ => ⟨S10000x10, .f32⟩
  | .hbm, ⟨43, _⟩ => ⟨S10000x10, .f32⟩
  | .hbm, ⟨44, _⟩ => ⟨S_, .f32⟩
  | .hbm, ⟨45, _⟩ => ⟨S10000, .f32⟩
  | .hbm, ⟨46, _⟩ => ⟨S10000x1, .f32⟩
  | .hbm, ⟨47, _⟩ => ⟨S10000x10, .f32⟩
  | .hbm, ⟨48, _⟩ => ⟨S10000x10, .f32⟩
  | _, _ => ⟨S1x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_call0_v2 : Ref sig .tc := ⟨.hbm, 20, rfl⟩
abbrev main_v11 : Ref sig .tc := ⟨.hbm, 21, rfl⟩
abbrev main_call1_v0 : Ref sig .tc := ⟨.hbm, 22, rfl⟩
abbrev main_call1_cst : Ref sig .tc := ⟨.hbm, 23, rfl⟩
abbrev main_call1_v1 : Ref sig .tc := ⟨.hbm, 24, rfl⟩
abbrev main_call1_v2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_0 : Ref sig .tc := ⟨.hbm, 35, rfl⟩
abbrev main_v20 : Ref sig .tc := ⟨.hbm, 36, rfl⟩
abbrev main_cst_1 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_2 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]

class Facts₀ : Prop where
  shapeCasts_S1x10000x128_S10000x128 : S1x10000x128.ShapeCasts S10000x128
  shapeCasts_S1x10000x10000_S10000x10000 : S1x10000x10000.ShapeCasts S10000x10000
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  transposes_S10x128_S128x10_1_0 : S10x128.Transposes [1, 0] S128x10
  reducesTo_S10000x128_S10000_d1 : S10000x128.ReducesTo [1] S10000
  h_S_ : 0 < S_.numel
  bcast_S10000_S10000x1_0 : S10000.BroadcastsInDim S10000x1 (![0] : Fin 1 → Fin S10000x1.rank)
  reducesTo_S10x128_S10_d1 : S10x128.ReducesTo [1] S10
  bcast_S10_S10x1_0 : S10.BroadcastsInDim S10x1 (![0] : Fin 1 → Fin S10x1.rank)
  transposes_S10x1_S1x10_1_0 : S10x1.Transposes [1, 0] S1x10
  bcast_S10000x1_S10000x10_0_1 : S10000x1.BroadcastsInDim S10000x10 (![0, 1] : Fin 2 → Fin S10000x10.rank)
  bcast_S1x10_S10000x10_0_1 : S1x10.BroadcastsInDim S10000x10 (![0, 1] : Fin 2 → Fin S10000x10.rank)
  bcast_S_S10000x10 : S_.BroadcastsInDim S10000x10 (![] : Fin 0 → Fin S10000x10.rank)
  reducesTo_S10000x10_S10000_d1 : S10000x10.ReducesTo [1] S10000
  bcast_S_S10000 : S_.BroadcastsInDim S10000 (![] : Fin 0 → Fin S10000.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x10_S10000x10_1_0_0_1_n_n_wf : DotDims.WF S10000x128 S128x10 S10000x10 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x10_S10000x10_1_0_0_1_n_n : DotDims S10000x128 S128x10 S10000x10 where
  lhsContracting := [1]
  rhsContracting := [0]
  lhsNonContracting := [0]
  rhsNonContracting := [1]
  lhsBatch := []
  rhsBatch := []
  wf := dot_S10000x128_S128x10_S10000x10_1_0_0_1_n_n_wf

class Facts : Prop extends Facts₀ where

variable [Facts]
-- ==== Proof.LibWholeBuffer.lean ====
/-
  Whole-buffer stores and loads.

  A kernel body that stores a value over a whole buffer (the rectangle of the buffer's own extents at offset zero)
  leaves exactly that value there, whatever the buffer held before; a load through the same rectangle of a buffer
  whose contents read `X` reads `X`; and a load of what one such store left reads the stored value.
-/
import Idealize.ShloMosaic.Lib.Pipeline.FrameBody
import Idealize.ShloMosaic.Lib.Pipeline.Value

noncomputable section

namespace Cert.LibWholeBuffer

open Idealize.ShloMosaic

variable {Val : EltTy → Type} [∀ e, Nonempty (Val e)] {sig : RefSig} {κ : Kind} {sp : Space} {S : Shape} {e : EltTy}

/-- The zero offset of a rank-2 rectangle, however it is spelt. -/
theorem zero2 : (![0, 0] : Fin 2 → ℕ) = fun _ => 0 := by
  funext a
  match a with
  | ⟨0, _⟩ => rfl
  | ⟨1, _⟩ => rfl

/-- One store over the whole buffer, read back through the buffer's view, is the stored value. -/
theorem read_store_whole (v : View sig κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩),
    View.canon_unit_zero h]

/-- A load over the whole of a whole buffer whose contents read `X` reads `X`. -/
theorem load_whole {m : Memref sig κ sp S e} (hm : m.IsWhole) (X : S.Idx → Val e) {off : Fin S.rank → Nat}
    (h : off = fun _ => 0) (inb : ∀ a, off a + S.size a ≤ S.size a) :
    m.view.readAt Val (Rect.unit off S.size inb).toLoadRect (hm.unread X) = X := by
  rw [View.readAt_eq_ld, hm.read_unread, View.ld_unit_zero h]

end Cert.LibWholeBuffer

end
-- ==== Proof.WordRuns.lean ====
/-
  The word-level kernel's body, run at the first grid point and at a later one.
-/
import proofs.«147089_g55181739819284_cont_9to1_m_1118_3_alg».proof.Proof.Gen.Kernel.Frame
import proofs.«147089_g55181739819284_cont_9to1_m_1118_3_alg».proof.Proof.Gen.Kernel.Skeleton
import Idealize.ShloMosaic.Lib.Pipeline.TableIdle
import Idealize.ShloMosaic.Lib.Pipeline.Value
import proofs.«147089_g55181739819284_cont_9to1_m_1118_3_alg».proof.Proof.LibWholeBuffer

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.LibWholeBuffer

/-! ## The kernel body, run once per kind of grid point

The body does two things. At the first grid point only it computes the hidden layer z = x W₁ + b, stores the product
z W₂ over the whole scratch buffer and stores the row-normalised similarities of z with the cluster rows over the
whole second output buffer. At every point it then multiplies the point's block of 400 rows of the adjacency matrix by
the scratch buffer, applies tanh and stores the result over the whole first output buffer. So after the first point the
scratch holds z W₂ and stays so, and the second output buffer holds the similarities and is not touched again. -/

set_option maxHeartbeats 1000000 in
/-- The first grid point: the six input buffers at their contents, the two output buffers and the scratch at anything;
    afterwards the scratch holds z W₂ (`k0_pay3`), the second output the similarities (`k0_pay4`) and the first output
    tanh of the adjacency block times z W₂ (`k0_pay1`). -/
theorem run_first (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S10x128 .f32) (harg6 : arg6.IsWhole) (arg7 : Memref sig .tc .vmem S400x128 .f32) (harg7 : arg7.IsWhole) (arg8 : Memref sig .tc .vmem S10000x10 .f32) (harg8 : arg8.IsWhole) (arg9 : Memref sig .tc .vmem S10000x128 .f32) (harg9 : arg9.IsWhole) (hc0 : k0_cond1 i = 1#1)
    (x0 : Vec F S10000x128 .f32) (x1 : Vec F S400x10000 .f32) (x2 : Vec F S128x128 .f32) (x3 : Vec F S1x128 .f32) (x4 : Vec F S128x128 .f32) (x5 : Vec F S10x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k0_pay1 x1 (k0_pay3 x0 x2 x3 x4)) ∗ owns (c : Thread nD τ) arg8 fullShare (k0_pay4 x0 x2 x3 x5) ∗ owns (c : Thread nD τ) arg9 fullShare (k0_pay3 x0 x2 x3 x4)) -∗ K ⟨⟩))
          ⊢ wp frame (wpE (defs₀ (F := F)) Variants.none c none) E (cc0__fused i arg1 harg1 arg2 harg2 arg3 harg3 arg4 harg4 arg5 harg5 arg6 harg6 arg7 harg7 arg8 harg8 arg9 harg9) K := by
    intro E K
    simp only [cc0__fused_eq_skeleton]; unfold cc0__fused_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; swap; · iexact H6
      ipureintro
      sl_unfold_words
      rw [read_store_whole _ _ zero2, View.readCov_unit_zero _ zero2, load_whole harg1 _ zero2, load_whole harg2 _ zero2,
        load_whole harg3 _ zero2, load_whole harg4 _ zero2, load_whole harg5 _ zero2]
    isplitl [H7]
    · iexists _; isplitr; swap; · iexact H7
      ipureintro
      sl_unfold_words
      rw [read_store_whole _ _ zero2, load_whole harg1 _ zero2, load_whole harg3 _ zero2, load_whole harg4 _ zero2,
        load_whole harg6 _ zero2]
    iexists _; isplitr; swap; · iexact HS0
    ipureintro
    sl_unfold_words
    rw [read_store_whole _ _ zero2, load_whole harg1 _ zero2, load_whole harg3 _ zero2, load_whole harg4 _ zero2,
      load_whole harg5 _ zero2]

set_option maxHeartbeats 1000000 in
/-- Every later grid point: the scratch is found at `xs` and the second output buffer at `xi`, and both are left as
    found; the first output is left at tanh of the adjacency block times `xs`. -/
theorem run_later (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S10x128 .f32) (harg6 : arg6.IsWhole) (arg7 : Memref sig .tc .vmem S400x128 .f32) (harg7 : arg7.IsWhole) (arg8 : Memref sig .tc .vmem S10000x10 .f32) (harg8 : arg8.IsWhole) (arg9 : Memref sig .tc .vmem S10000x128 .f32) (harg9 : arg9.IsWhole) (hc0 : ¬ k0_cond1 i = 1#1)
    (x0 : Vec F S10000x128 .f32) (x1 : Vec F S400x10000 .f32) (x2 : Vec F S128x128 .f32) (x3 : Vec F S1x128 .f32) (x4 : Vec F S128x128 .f32) (x5 : Vec F S10x128 .f32) (xi : Vec F S10000x10 .f32) (xs : Vec F S10000x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi ∗ owns (c : Thread nD τ) arg9 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k0_pay1 x1 xs) ∗ owns (c : Thread nD τ) arg8 fullShare xi ∗ owns (c : Thread nD τ) arg9 fullShare xs) -∗ K ⟨⟩))
          ⊢ wp frame (wpE (defs₀ (F := F)) Variants.none c none) E (cc0__fused i arg1 harg1 arg2 harg2 arg3 harg3 arg4 harg4 arg5 harg5 arg6 harg6 arg7 harg7 arg8 harg8 arg9 harg9) K := by
    intro E K
    simp only [cc0__fused_eq_skeleton]; unfold cc0__fused_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; swap; · iexact H6
      ipureintro
      sl_unfold_words
      rw [read_store_whole _ _ zero2, load_whole harg2 _ zero2, load_whole harg9 _ zero2]
    isplitl [H7]
    · iexists _; isplitr; · ipureintro; exact harg8.read_unread _
      iexact H7
    iexists _; isplitr; · ipureintro; exact harg9.read_unread _
    iexact HS0

end Cert.Kernel.Body

end
-- ==== Proof.WordFrame.lean ====
/-
  The word-level kernel's run: the proof data of its one pipeline, the invariant that carries the scratch buffer from
  point to point, the body obligation, and the frame.
-/
import proofs.«147089_g55181739819284_cont_9to1_m_1118_3_alg».proof.Proof.WordRuns

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's schedule

The body's condition holds at the first of the 25 points only. The six inputs and the first output are touched at
every point; the second output is stored at the first point only and then rests in its buffer until the last point
writes it back. -/

theorem first_iff : ∀ t : Fin cfg0.N, k0_cond1 (grid0.coords t) = 1#1 ↔ t.val % 25 = 0 :=
  (by decide +kernel : ∀ t : Fin grid0.N, k0_cond1 (grid0.coords t) = 1#1 ↔ t.val % 25 = 0)

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem idle7_first : ∀ t : Fin cfg0.N, t.val % 25 = 0 → cfg0.idle 7 (grid0.coords t) = false := by decide +kernel
theorem idle7_later : ∀ t : Fin cfg0.N, ¬ t.val % 25 = 0 → cfg0.idle 7 (grid0.coords t) = true := by decide +kernel

/-- The second output's buffer holds nothing the body stored only before the first point and after the last. -/
theorem fresh7 : ∀ n, n ≤ cfg0.N → cfg0.fresh 7 n = (n == 0 || n == 25) :=
  Pipeline.Cfg.fresh_tab cfg0 7 (fun n => n == 0 || n == 25) rfl
    (by decide +kernel : ∀ t : Fin grid0.N, (t.val + 1 == 0 || t.val + 1 == 25) = ((cfg0.win 7).flush t || (cfg0.idle 7 (cfg0.grid.coords t) && (t.val == 0 || t.val == 25))))

/-! ## The staging buffers at a point, and the scratch -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S400x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S10x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S400x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S10000x10 .f32 := win0_7.stage (cfg0.slots t 7)
abbrev hs7 (t : Fin cfg0.N) : (ms7 t).IsWhole := hstage0_7 ((cfg0.slots t 7).cast nbuf0_7)
abbrev scratch : Memref sig .tc .vmem S10000x128 .f32 := Memref.whole cc0_scratch0

/-- The region's own invariant: the scratch at anything, the generator register at anything. -/
theorem PhiA_eq (c : Dev nD) :
    (Pipeline.ΦA spec0 c : sProp 𝕄)
      = iprop(iprop((∃ d, owns (c : Thread nD τ) scratch fullShare d)) ∗ (∃ r, prngReg c r)) := by
  unfold Pipeline.ΦA; rw [scopedRest0_eq]; simp only [scratch, owns_whole]; try rfl

/-! ## What the buffers hold, point by point

The blocks of the inputs other than the adjacency matrix are the whole arrays and the same at every point, so z W₂ and
the similarities are one value each for the whole run: they are named at the first point. -/

/-- The first grid point. -/
abbrev t0 : Fin cfg0.N := ⟨0, by rw [show cfg0.N = 25 from N_0]; exact Nat.succ_pos _⟩

/-- z W₂ of the blocks at point `t`. -/
def supportAt (c : Dev nD) (t : Fin cfg0.N) : Vec F S10000x128 .f32 :=
  k0_pay3 (iblk m c 0 t) (iblk m c 2 t) (iblk m c 3 t) (iblk m c 4 t)
/-- The similarities of the blocks at point `t`. -/
def simsAt (c : Dev nD) (t : Fin cfg0.N) : Vec F S10000x10 .f32 :=
  k0_pay4 (iblk m c 0 t) (iblk m c 2 t) (iblk m c 3 t) (iblk m c 5 t)
/-- What the scratch holds from the first point on: z W₂. -/
def support (c : Dev nD) : Vec F S10000x128 .f32 := supportAt m c t0
/-- What the second output's buffer holds from the first point on: the similarities. -/
def sims (c : Dev nD) : Vec F S10000x10 .f32 := simsAt m c t0
/-- What the first output's buffer holds after point `t`: tanh of the point's adjacency block times z W₂. -/
def hidden (c : Dev nD) (t : Fin cfg0.N) : Vec F S400x128 .f32 := k0_pay1 (iblk m c 1 t) (support m c)

theorem supportAt_first (c : Dev nD) (t : Fin cfg0.N) (h : t.val = 0) : supportAt m c t = support m c := by
  obtain rfl : t = t0 := Fin.ext h
  rfl
theorem simsAt_first (c : Dev nD) (t : Fin cfg0.N) (h : t.val = 0) : simsAt m c t = sims m c := by
  obtain rfl : t = t0 := Fin.ext h
  rfl

/-- The invariant before position `n`: before the first point the region's own; afterwards the scratch at z W₂. -/
def PhiS (c : Dev nD) : ℕ → sProp 𝕄
  | 0 => Pipeline.ΦA spec0 c
  | _ + 1 => iprop(iprop(owns (c : Thread nD τ) scratch fullShare (support m c)) ∗ (∃ r, prngReg c r))

theorem PhiS_pos (c : Dev nD) (n : ℕ) (hn : n ≠ 0) :
    PhiS m c n = iprop(iprop(owns (c : Thread nD τ) scratch fullShare (support m c)) ∗ (∃ r, prngReg c r)) := by
  cases n with
  | zero => exact absurd rfl hn
  | succ n => rfl

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hidden m c t
    | ⟨7, _⟩ => sims m c
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = hidden m c t := by dsimp only [dats]
theorem after7 (c : Dev nD) (t : Fin cfg0.N) : (dats m 0 c).after 7 t = sims m c := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- After the first point the second output's buffer is found at the similarities: the first point stored them, no
    later point stores into the buffer, and nothing is written back before the last point. -/
theorem before7 (c : Dev nD) (t : Fin cfg0.N) (ht : t.val ≠ 0) (d) : (dats m 0 c).before 7 t d = sims m c := by
  have hN : t.val < 25 := lt_of_lt_of_eq t.isLt (show cfg0.N = 25 from N_0)
  rw [Pipeline.Dat.before_out_traj (dats m 0 c) 7 rfl (fun _ _ => rfl) (fun t _ _ _ => by rw [after7, after7]) t.val t rfl d,
    fresh7 t.val (le_of_lt t.isLt)]
  have hb : (t.val == 0 || t.val == 25) = false := by
    rw [Bool.or_eq_false_iff]; exact ⟨beq_false_of_ne ht, beq_false_of_ne (by omega)⟩
  rw [hb, if_neg Bool.false_ne_true, after7]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 1600000 in
/-- The body at any point. At the first point it is handed the scratch at anything and leaves it at z W₂; at a later
    point it finds the scratch at z W₂ and the second output's buffer at the similarities and leaves both as found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl]
  rw [show (dats m 0 c).Φ t.succ = iprop(iprop(owns (c : Thread nD τ) scratch fullShare (support m c)) ∗ (∃ r, prngReg c r)) from rfl]
  rw [show (dats m 0 c).Φ t.castSucc = PhiS m c t.val from rfl]
  have hN : t.val < 25 := lt_of_lt_of_eq t.isLt (show cfg0.N = 25 from N_0)
  by_cases h0 : t.val % 25 = 0
  · have hz : t.val = 0 := by omega
    rw [show (dats m 0 c).leavesExact 0 t = owns (c : Thread nD τ) (ms0 t) fullShare ((dats m 0 c).after 0 t) from by
      unfold Dat.leavesExact; rw [live0 t]]
    rw [after0]
    rw [show (dats m 0 c).leavesExact 1 t = owns (c : Thread nD τ) (ms1 t) fullShare ((dats m 0 c).after 1 t) from by
      unfold Dat.leavesExact; rw [live1 t]]
    rw [after1]
    rw [show (dats m 0 c).leavesExact 2 t = owns (c : Thread nD τ) (ms2 t) fullShare ((dats m 0 c).after 2 t) from by
      unfold Dat.leavesExact; rw [live2 t]]
    rw [after2]
    rw [show (dats m 0 c).leavesExact 3 t = owns (c : Thread nD τ) (ms3 t) fullShare ((dats m 0 c).after 3 t) from by
      unfold Dat.leavesExact; rw [live3 t]]
    rw [after3]
    rw [show (dats m 0 c).leavesExact 4 t = owns (c : Thread nD τ) (ms4 t) fullShare ((dats m 0 c).after 4 t) from by
      unfold Dat.leavesExact; rw [live4 t]]
    rw [after4]
    rw [show (dats m 0 c).leavesExact 5 t = owns (c : Thread nD τ) (ms5 t) fullShare ((dats m 0 c).after 5 t) from by
      unfold Dat.leavesExact; rw [live5 t]]
    rw [after5]
    rw [show (dats m 0 c).leavesExact 6 t = owns (c : Thread nD τ) (ms6 t) fullShare ((dats m 0 c).after 6 t) from by
      unfold Dat.leavesExact; rw [live6 t]]
    rw [after6]
    rw [show (dats m 0 c).leavesExact 7 t = owns (c : Thread nD τ) (ms7 t) fullShare ((dats m 0 c).after 7 t) from by
      unfold Dat.leavesExact; rw [idle7_first t h0], after7]
    simp only [before0, before1, before2, before3, before4, before5]
    rw [show PhiS m c t.val = Pipeline.ΦA spec0 c from by rw [hz]; rfl, PhiA_eq]
    unfold hidden
    rw [← supportAt_first m c t hz, ← simsAt_first m c t hz]
    unfold supportAt simsAt
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_first c (grid0.coords t) _ _ _ _ _ _ _ _ _ _ _ _ _ _ _ _ _ _ ((first_iff t).mpr h0) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    iintro ⟨H0, H1, H2, H3, H4, H5, H6, H7, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hz : t.val ≠ 0 := fun h => h0 (by rw [h])
    rw [PhiS_pos m c t.val hz]
    by_cases h24 : t.val % 25 = 24
    ·
      rw [show (dats m 0 c).leavesExact 0 t = owns (c : Thread nD τ) (ms0 t) fullShare ((dats m 0 c).after 0 t) from by
        unfold Dat.leavesExact; rw [live0 t]]
      rw [after0]
      rw [show (dats m 0 c).leavesExact 1 t = owns (c : Thread nD τ) (ms1 t) fullShare ((dats m 0 c).after 1 t) from by
        unfold Dat.leavesExact; rw [live1 t]]
      rw [after1]
      rw [show (dats m 0 c).leavesExact 2 t = owns (c : Thread nD τ) (ms2 t) fullShare ((dats m 0 c).after 2 t) from by
        unfold Dat.leavesExact; rw [live2 t]]
      rw [after2]
      rw [show (dats m 0 c).leavesExact 3 t = owns (c : Thread nD τ) (ms3 t) fullShare ((dats m 0 c).after 3 t) from by
        unfold Dat.leavesExact; rw [live3 t]]
      rw [after3]
      rw [show (dats m 0 c).leavesExact 4 t = owns (c : Thread nD τ) (ms4 t) fullShare ((dats m 0 c).after 4 t) from by
        unfold Dat.leavesExact; rw [live4 t]]
      rw [after4]
      rw [show (dats m 0 c).leavesExact 5 t = owns (c : Thread nD τ) (ms5 t) fullShare ((dats m 0 c).after 5 t) from by
        unfold Dat.leavesExact; rw [live5 t]]
      rw [after5]
      rw [show (dats m 0 c).leavesExact 6 t = owns (c : Thread nD τ) (ms6 t) fullShare ((dats m 0 c).after 6 t) from by
        unfold Dat.leavesExact; rw [live6 t]]
      rw [after6]
      rw [show (dats m 0 c).leavesExact 7 t = owns (c : Thread nD τ) (ms7 t) fullShare ((dats m 0 c).after 7 t) from by
        unfold Dat.leavesExact; rw [idle7_later t h0, (flush0_7 t).mpr h24], after7]
      simp only [before0, before1, before2, before3, before4, before5, before7 m c t hz]
      unfold hidden
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_later c (grid0.coords t) _ _ _ _ _ _ _ _ _ _ _ _ _ _ _ _ _ _ (fun h => h0 ((first_iff t).mp h)) (iblk m c 0 t) (iblk m c 1 t) (iblk m c 2 t) (iblk m c 3 t) (iblk m c 4 t) (iblk m c 5 t) (sims m c) (support m c) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      iintro ⟨H0, H1, H2, H3, H4, H5, H6, H7, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    ·
      rw [show (dats m 0 c).leavesExact 0 t = owns (c : Thread nD τ) (ms0 t) fullShare ((dats m 0 c).after 0 t) from by
        unfold Dat.leavesExact; rw [live0 t]]
      rw [after0]
      rw [show (dats m 0 c).leavesExact 1 t = owns (c : Thread nD τ) (ms1 t) fullShare ((dats m 0 c).after 1 t) from by
        unfold Dat.leavesExact; rw [live1 t]]
      rw [after1]
      rw [show (dats m 0 c).leavesExact 2 t = owns (c : Thread nD τ) (ms2 t) fullShare ((dats m 0 c).after 2 t) from by
        unfold Dat.leavesExact; rw [live2 t]]
      rw [after2]
      rw [show (dats m 0 c).leavesExact 3 t = owns (c : Thread nD τ) (ms3 t) fullShare ((dats m 0 c).after 3 t) from by
        unfold Dat.leavesExact; rw [live3 t]]
      rw [after3]
      rw [show (dats m 0 c).leavesExact 4 t = owns (c : Thread nD τ) (ms4 t) fullShare ((dats m 0 c).after 4 t) from by
        unfold Dat.leavesExact; rw [live4 t]]
      rw [after4]
      rw [show (dats m 0 c).leavesExact 5 t = owns (c : Thread nD τ) (ms5 t) fullShare ((dats m 0 c).after 5 t) from by
        unfold Dat.leavesExact; rw [live5 t]]
      rw [after5]
      rw [show (dats m 0 c).leavesExact 6 t = owns (c : Thread nD τ) (ms6 t) fullShare ((dats m 0 c).after 6 t) from by
        unfold Dat.leavesExact; rw [live6 t]]
      rw [after6]
      rw [Dat.leavesExact_idle (dats m 0 c) 7 t (idle7_later t h0) (by
        cases hf : (cfg0.win 7).flush t
        · rfl
        · exact absurd ((flush0_7 t).mp hf) h24)]
      simp only [before0, before1, before2, before3, before4, before5, before7 m c t hz]
      unfold hidden
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_later c (grid0.coords t) _ _ _ _ _ _ _ _ _ _ _ _ _ _ _ _ _ _ (fun h => h0 ((first_iff t).mp h)) (iblk m c 0 t) (iblk m c 1 t) (iblk m c 2 t) (iblk m c 3 t) (iblk m c 4 t) (iblk m c 5 t) (sims m c) (support m c) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      iintro ⟨H0, H1, H2, H3, H4, H5, H6, H7, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists d7; iexact H7

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = Pipeline.ΦA spec0 c from rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N from rfl,
    PhiS_pos m c cfg0.N (by rw [show cfg0.N = 25 from N_0]; exact Nat.succ_ne_zero _), PhiA_eq]
  iintro ⟨HS0, Hg⟩
  isplitl [HS0]
  · iexists _; iexact HS0
  iexact Hg

/-! ## The run and the frame -/

set_option backward.isDefEq.respectTransparency.types false in
/-- Every weakly fair execution of the program terminates; afterwards every array of the pipeline holds what the proof
    data say and every other buffer what it held when the region was entered. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Body

end
-- ==== Proof.IdealRuns.lean ====
/-
  The idealized kernel's body, run at the first grid point and at a later one.
-/
import proofs.«147089_g55181739819284_cont_9to1_m_1118_3_alg».proof.Proof.Gen.KernelIdeal.Frame
import proofs.«147089_g55181739819284_cont_9to1_m_1118_3_alg».proof.Proof.Gen.KernelIdeal.Skeleton
import Idealize.ShloMosaic.Lib.Pipeline.TableIdle
import Idealize.ShloMosaic.Lib.Pipeline.Value
import proofs.«147089_g55181739819284_cont_9to1_m_1118_3_alg».proof.Proof.LibWholeBuffer

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.LibWholeBuffer

/-! ## The kernel body, run once per kind of grid point

The body does two things. At the first grid point only it computes the hidden layer z = x W₁ + b, stores the product
z W₂ over the whole scratch buffer and stores the row-normalised similarities of z with the cluster rows over the
whole second output buffer. At every point it then multiplies the point's block of 400 rows of the adjacency matrix by
the scratch buffer, applies tanh and stores the result over the whole first output buffer. So after the first point the
scratch holds z W₂ and stays so, and the second output buffer holds the similarities and is not touched again. -/

set_option maxHeartbeats 1000000 in
/-- The first grid point: the six input buffers at their contents, the two output buffers and the scratch at anything;
    afterwards the scratch holds z W₂ (`k0_pay3`), the second output the similarities (`k0_pay4`) and the first output
    tanh of the adjacency block times z W₂ (`k0_pay1`). -/
theorem run_first (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S10x128 .f32) (harg6 : arg6.IsWhole) (arg7 : Memref sig .tc .vmem S400x128 .f32) (harg7 : arg7.IsWhole) (arg8 : Memref sig .tc .vmem S10000x10 .f32) (harg8 : arg8.IsWhole) (arg9 : Memref sig .tc .vmem S10000x128 .f32) (harg9 : arg9.IsWhole) (hc0 : k0_cond1 i = 1#1)
    (x0 : Vec F S10000x128 .f32) (x1 : Vec F S400x10000 .f32) (x2 : Vec F S128x128 .f32) (x3 : Vec F S1x128 .f32) (x4 : Vec F S128x128 .f32) (x5 : Vec F S10x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k0_pay1 x1 (k0_pay3 x0 x2 x3 x4)) ∗ owns (c : Thread nD τ) arg8 fullShare (k0_pay4 x0 x2 x3 x5) ∗ owns (c : Thread nD τ) arg9 fullShare (k0_pay3 x0 x2 x3 x4)) -∗ K ⟨⟩))
          ⊢ wp frame (wpE (defs₀ (F := F)) Variants.none c none) E (cc0__fused i arg1 harg1 arg2 harg2 arg3 harg3 arg4 harg4 arg5 harg5 arg6 harg6 arg7 harg7 arg8 harg8 arg9 harg9) K := by
    intro E K
    simp only [cc0__fused_eq_skeleton]; unfold cc0__fused_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; swap; · iexact H6
      ipureintro
      sl_unfold_words
      rw [read_store_whole _ _ zero2, View.readCov_unit_zero _ zero2, load_whole harg1 _ zero2, load_whole harg2 _ zero2,
        load_whole harg3 _ zero2, load_whole harg4 _ zero2, load_whole harg5 _ zero2]
    isplitl [H7]
    · iexists _; isplitr; swap; · iexact H7
      ipureintro
      sl_unfold_words
      rw [read_store_whole _ _ zero2, load_whole harg1 _ zero2, load_whole harg3 _ zero2, load_whole harg4 _ zero2,
        load_whole harg6 _ zero2]
    iexists _; isplitr; swap; · iexact HS0
    ipureintro
    sl_unfold_words
    rw [read_store_whole _ _ zero2, load_whole harg1 _ zero2, load_whole harg3 _ zero2, load_whole harg4 _ zero2,
      load_whole harg5 _ zero2]

set_option maxHeartbeats 1000000 in
/-- Every later grid point: the scratch is found at `xs` and the second output buffer at `xi`, and both are left as
    found; the first output is left at tanh of the adjacency block times `xs`. -/
theorem run_later (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S10x128 .f32) (harg6 : arg6.IsWhole) (arg7 : Memref sig .tc .vmem S400x128 .f32) (harg7 : arg7.IsWhole) (arg8 : Memref sig .tc .vmem S10000x10 .f32) (harg8 : arg8.IsWhole) (arg9 : Memref sig .tc .vmem S10000x128 .f32) (harg9 : arg9.IsWhole) (hc0 : ¬ k0_cond1 i = 1#1)
    (x0 : Vec F S10000x128 .f32) (x1 : Vec F S400x10000 .f32) (x2 : Vec F S128x128 .f32) (x3 : Vec F S1x128 .f32) (x4 : Vec F S128x128 .f32) (x5 : Vec F S10x128 .f32) (xi : Vec F S10000x10 .f32) (xs : Vec F S10000x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi ∗ owns (c : Thread nD τ) arg9 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k0_pay1 x1 xs) ∗ owns (c : Thread nD τ) arg8 fullShare xi ∗ owns (c : Thread nD τ) arg9 fullShare xs) -∗ K ⟨⟩))
          ⊢ wp frame (wpE (defs₀ (F := F)) Variants.none c none) E (cc0__fused i arg1 harg1 arg2 harg2 arg3 harg3 arg4 harg4 arg5 harg5 arg6 harg6 arg7 harg7 arg8 harg8 arg9 harg9) K := by
    intro E K
    simp only [cc0__fused_eq_skeleton]; unfold cc0__fused_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; swap; · iexact H6
      ipureintro
      sl_unfold_words
      rw [read_store_whole _ _ zero2, load_whole harg2 _ zero2, load_whole harg9 _ zero2]
    isplitl [H7]
    · iexists _; isplitr; · ipureintro; exact harg8.read_unread _
      iexact H7
    iexists _; isplitr; · ipureintro; exact harg9.read_unread _
    iexact HS0

end Cert.KernelIdeal.Body

end
-- ==== Proof.IdealFrame.lean ====
/-
  The idealized kernel's run: the proof data of its one pipeline, the invariant that carries the scratch buffer from
  point to point, the body obligation, and the frame.
-/
import proofs.«147089_g55181739819284_cont_9to1_m_1118_3_alg».proof.Proof.IdealRuns

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's schedule

The body's condition holds at the first of the 25 points only. The six inputs and the first output are touched at
every point; the second output is stored at the first point only and then rests in its buffer until the last point
writes it back. -/

theorem first_iff : ∀ t : Fin cfg0.N, k0_cond1 (grid0.coords t) = 1#1 ↔ t.val % 25 = 0 :=
  (by decide +kernel : ∀ t : Fin grid0.N, k0_cond1 (grid0.coords t) = 1#1 ↔ t.val % 25 = 0)

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem idle7_first : ∀ t : Fin cfg0.N, t.val % 25 = 0 → cfg0.idle 7 (grid0.coords t) = false := by decide +kernel
theorem idle7_later : ∀ t : Fin cfg0.N, ¬ t.val % 25 = 0 → cfg0.idle 7 (grid0.coords t) = true := by decide +kernel

/-- The second output's buffer holds nothing the body stored only before the first point and after the last. -/
theorem fresh7 : ∀ n, n ≤ cfg0.N → cfg0.fresh 7 n = (n == 0 || n == 25) :=
  Pipeline.Cfg.fresh_tab cfg0 7 (fun n => n == 0 || n == 25) rfl
    (by decide +kernel : ∀ t : Fin grid0.N, (t.val + 1 == 0 || t.val + 1 == 25) = ((cfg0.win 7).flush t || (cfg0.idle 7 (cfg0.grid.coords t) && (t.val == 0 || t.val == 25))))

/-! ## The staging buffers at a point, and the scratch -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S400x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S10x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S400x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S10000x10 .f32 := win0_7.stage (cfg0.slots t 7)
abbrev hs7 (t : Fin cfg0.N) : (ms7 t).IsWhole := hstage0_7 ((cfg0.slots t 7).cast nbuf0_7)
abbrev scratch : Memref sig .tc .vmem S10000x128 .f32 := Memref.whole cc0_scratch0

/-- The region's own invariant: the scratch at anything, the generator register at anything. -/
theorem PhiA_eq (c : Dev nD) :
    (Pipeline.ΦA spec0 c : sProp 𝕄)
      = iprop(iprop((∃ d, owns (c : Thread nD τ) scratch fullShare d)) ∗ (∃ r, prngReg c r)) := by
  unfold Pipeline.ΦA; rw [scopedRest0_eq]; simp only [scratch, owns_whole]; try rfl

/-! ## What the buffers hold, point by point

The blocks of the inputs other than the adjacency matrix are the whole arrays and the same at every point, so z W₂ and
the similarities are one value each for the whole run: they are named at the first point. -/

/-- The first grid point. -/
abbrev t0 : Fin cfg0.N := ⟨0, by rw [show cfg0.N = 25 from N_0]; exact Nat.succ_pos _⟩

/-- z W₂ of the blocks at point `t`. -/
def supportAt (c : Dev nD) (t : Fin cfg0.N) : Vec F S10000x128 .f32 :=
  k0_pay3 (iblk m c 0 t) (iblk m c 2 t) (iblk m c 3 t) (iblk m c 4 t)
/-- The similarities of the blocks at point `t`. -/
def simsAt (c : Dev nD) (t : Fin cfg0.N) : Vec F S10000x10 .f32 :=
  k0_pay4 (iblk m c 0 t) (iblk m c 2 t) (iblk m c 3 t) (iblk m c 5 t)
/-- What the scratch holds from the first point on: z W₂. -/
def support (c : Dev nD) : Vec F S10000x128 .f32 := supportAt m c t0
/-- What the second output's buffer holds from the first point on: the similarities. -/
def sims (c : Dev nD) : Vec F S10000x10 .f32 := simsAt m c t0
/-- What the first output's buffer holds after point `t`: tanh of the point's adjacency block times z W₂. -/
def hidden (c : Dev nD) (t : Fin cfg0.N) : Vec F S400x128 .f32 := k0_pay1 (iblk m c 1 t) (support m c)

theorem supportAt_first (c : Dev nD) (t : Fin cfg0.N) (h : t.val = 0) : supportAt m c t = support m c := by
  obtain rfl : t = t0 := Fin.ext h
  rfl
theorem simsAt_first (c : Dev nD) (t : Fin cfg0.N) (h : t.val = 0) : simsAt m c t = sims m c := by
  obtain rfl : t = t0 := Fin.ext h
  rfl

/-- The invariant before position `n`: before the first point the region's own; afterwards the scratch at z W₂. -/
def PhiS (c : Dev nD) : ℕ → sProp 𝕄
  | 0 => Pipeline.ΦA spec0 c
  | _ + 1 => iprop(iprop(owns (c : Thread nD τ) scratch fullShare (support m c)) ∗ (∃ r, prngReg c r))

theorem PhiS_pos (c : Dev nD) (n : ℕ) (hn : n ≠ 0) :
    PhiS m c n = iprop(iprop(owns (c : Thread nD τ) scratch fullShare (support m c)) ∗ (∃ r, prngReg c r)) := by
  cases n with
  | zero => exact absurd rfl hn
  | succ n => rfl

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hidden m c t
    | ⟨7, _⟩ => sims m c
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = hidden m c t := by dsimp only [dats]
theorem after7 (c : Dev nD) (t : Fin cfg0.N) : (dats m 0 c).after 7 t = sims m c := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- After the first point the second output's buffer is found at the similarities: the first point stored them, no
    later point stores into the buffer, and nothing is written back before the last point. -/
theorem before7 (c : Dev nD) (t : Fin cfg0.N) (ht : t.val ≠ 0) (d) : (dats m 0 c).before 7 t d = sims m c := by
  have hN : t.val < 25 := lt_of_lt_of_eq t.isLt (show cfg0.N = 25 from N_0)
  rw [Pipeline.Dat.before_out_traj (dats m 0 c) 7 rfl (fun _ _ => rfl) (fun t _ _ _ => by rw [after7, after7]) t.val t rfl d,
    fresh7 t.val (le_of_lt t.isLt)]
  have hb : (t.val == 0 || t.val == 25) = false := by
    rw [Bool.or_eq_false_iff]; exact ⟨beq_false_of_ne ht, beq_false_of_ne (by omega)⟩
  rw [hb, if_neg Bool.false_ne_true, after7]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 1600000 in
/-- The body at any point. At the first point it is handed the scratch at anything and leaves it at z W₂; at a later
    point it finds the scratch at z W₂ and the second output's buffer at the similarities and leaves both as found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl]
  rw [show (dats m 0 c).Φ t.succ = iprop(iprop(owns (c : Thread nD τ) scratch fullShare (support m c)) ∗ (∃ r, prngReg c r)) from rfl]
  rw [show (dats m 0 c).Φ t.castSucc = PhiS m c t.val from rfl]
  have hN : t.val < 25 := lt_of_lt_of_eq t.isLt (show cfg0.N = 25 from N_0)
  by_cases h0 : t.val % 25 = 0
  · have hz : t.val = 0 := by omega
    rw [show (dats m 0 c).leavesExact 0 t = owns (c : Thread nD τ) (ms0 t) fullShare ((dats m 0 c).after 0 t) from by
      unfold Dat.leavesExact; rw [live0 t]]
    rw [after0]
    rw [show (dats m 0 c).leavesExact 1 t = owns (c : Thread nD τ) (ms1 t) fullShare ((dats m 0 c).after 1 t) from by
      unfold Dat.leavesExact; rw [live1 t]]
    rw [after1]
    rw [show (dats m 0 c).leavesExact 2 t = owns (c : Thread nD τ) (ms2 t) fullShare ((dats m 0 c).after 2 t) from by
      unfold Dat.leavesExact; rw [live2 t]]
    rw [after2]
    rw [show (dats m 0 c).leavesExact 3 t = owns (c : Thread nD τ) (ms3 t) fullShare ((dats m 0 c).after 3 t) from by
      unfold Dat.leavesExact; rw [live3 t]]
    rw [after3]
    rw [show (dats m 0 c).leavesExact 4 t = owns (c : Thread nD τ) (ms4 t) fullShare ((dats m 0 c).after 4 t) from by
      unfold Dat.leavesExact; rw [live4 t]]
    rw [after4]
    rw [show (dats m 0 c).leavesExact 5 t = owns (c : Thread nD τ) (ms5 t) fullShare ((dats m 0 c).after 5 t) from by
      unfold Dat.leavesExact; rw [live5 t]]
    rw [after5]
    rw [show (dats m 0 c).leavesExact 6 t = owns (c : Thread nD τ) (ms6 t) fullShare ((dats m 0 c).after 6 t) from by
      unfold Dat.leavesExact; rw [live6 t]]
    rw [after6]
    rw [show (dats m 0 c).leavesExact 7 t = owns (c : Thread nD τ) (ms7 t) fullShare ((dats m 0 c).after 7 t) from by
      unfold Dat.leavesExact; rw [idle7_first t h0], after7]
    simp only [before0, before1, before2, before3, before4, before5]
    rw [show PhiS m c t.val = Pipeline.ΦA spec0 c from by rw [hz]; rfl, PhiA_eq]
    unfold hidden
    rw [← supportAt_first m c t hz, ← simsAt_first m c t hz]
    unfold supportAt simsAt
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_first c (grid0.coords t) _ _ _ _ _ _ _ _ _ _ _ _ _ _ _ _ _ _ ((first_iff t).mpr h0) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    iintro ⟨H0, H1, H2, H3, H4, H5, H6, H7, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hz : t.val ≠ 0 := fun h => h0 (by rw [h])
    rw [PhiS_pos m c t.val hz]
    by_cases h24 : t.val % 25 = 24
    ·
      rw [show (dats m 0 c).leavesExact 0 t = owns (c : Thread nD τ) (ms0 t) fullShare ((dats m 0 c).after 0 t) from by
        unfold Dat.leavesExact; rw [live0 t]]
      rw [after0]
      rw [show (dats m 0 c).leavesExact 1 t = owns (c : Thread nD τ) (ms1 t) fullShare ((dats m 0 c).after 1 t) from by
        unfold Dat.leavesExact; rw [live1 t]]
      rw [after1]
      rw [show (dats m 0 c).leavesExact 2 t = owns (c : Thread nD τ) (ms2 t) fullShare ((dats m 0 c).after 2 t) from by
        unfold Dat.leavesExact; rw [live2 t]]
      rw [after2]
      rw [show (dats m 0 c).leavesExact 3 t = owns (c : Thread nD τ) (ms3 t) fullShare ((dats m 0 c).after 3 t) from by
        unfold Dat.leavesExact; rw [live3 t]]
      rw [after3]
      rw [show (dats m 0 c).leavesExact 4 t = owns (c : Thread nD τ) (ms4 t) fullShare ((dats m 0 c).after 4 t) from by
        unfold Dat.leavesExact; rw [live4 t]]
      rw [after4]
      rw [show (dats m 0 c).leavesExact 5 t = owns (c : Thread nD τ) (ms5 t) fullShare ((dats m 0 c).after 5 t) from by
        unfold Dat.leavesExact; rw [live5 t]]
      rw [after5]
      rw [show (dats m 0 c).leavesExact 6 t = owns (c : Thread nD τ) (ms6 t) fullShare ((dats m 0 c).after 6 t) from by
        unfold Dat.leavesExact; rw [live6 t]]
      rw [after6]
      rw [show (dats m 0 c).leavesExact 7 t = owns (c : Thread nD τ) (ms7 t) fullShare ((dats m 0 c).after 7 t) from by
        unfold Dat.leavesExact; rw [idle7_later t h0, (flush0_7 t).mpr h24], after7]
      simp only [before0, before1, before2, before3, before4, before5, before7 m c t hz]
      unfold hidden
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_later c (grid0.coords t) _ _ _ _ _ _ _ _ _ _ _ _ _ _ _ _ _ _ (fun h => h0 ((first_iff t).mp h)) (iblk m c 0 t) (iblk m c 1 t) (iblk m c 2 t) (iblk m c 3 t) (iblk m c 4 t) (iblk m c 5 t) (sims m c) (support m c) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      iintro ⟨H0, H1, H2, H3, H4, H5, H6, H7, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    ·
      rw [show (dats m 0 c).leavesExact 0 t = owns (c : Thread nD τ) (ms0 t) fullShare ((dats m 0 c).after 0 t) from by
        unfold Dat.leavesExact; rw [live0 t]]
      rw [after0]
      rw [show (dats m 0 c).leavesExact 1 t = owns (c : Thread nD τ) (ms1 t) fullShare ((dats m 0 c).after 1 t) from by
        unfold Dat.leavesExact; rw [live1 t]]
      rw [after1]
      rw [show (dats m 0 c).leavesExact 2 t = owns (c : Thread nD τ) (ms2 t) fullShare ((dats m 0 c).after 2 t) from by
        unfold Dat.leavesExact; rw [live2 t]]
      rw [after2]
      rw [show (dats m 0 c).leavesExact 3 t = owns (c : Thread nD τ) (ms3 t) fullShare ((dats m 0 c).after 3 t) from by
        unfold Dat.leavesExact; rw [live3 t]]
      rw [after3]
      rw [show (dats m 0 c).leavesExact 4 t = owns (c : Thread nD τ) (ms4 t) fullShare ((dats m 0 c).after 4 t) from by
        unfold Dat.leavesExact; rw [live4 t]]
      rw [after4]
      rw [show (dats m 0 c).leavesExact 5 t = owns (c : Thread nD τ) (ms5 t) fullShare ((dats m 0 c).after 5 t) from by
        unfold Dat.leavesExact; rw [live5 t]]
      rw [after5]
      rw [show (dats m 0 c).leavesExact 6 t = owns (c : Thread nD τ) (ms6 t) fullShare ((dats m 0 c).after 6 t) from by
        unfold Dat.leavesExact; rw [live6 t]]
      rw [after6]
      rw [Dat.leavesExact_idle (dats m 0 c) 7 t (idle7_later t h0) (by
        cases hf : (cfg0.win 7).flush t
        · rfl
        · exact absurd ((flush0_7 t).mp hf) h24)]
      simp only [before0, before1, before2, before3, before4, before5, before7 m c t hz]
      unfold hidden
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_later c (grid0.coords t) _ _ _ _ _ _ _ _ _ _ _ _ _ _ _ _ _ _ (fun h => h0 ((first_iff t).mp h)) (iblk m c 0 t) (iblk m c 1 t) (iblk m c 2 t) (iblk m c 3 t) (iblk m c 4 t) (iblk m c 5 t) (sims m c) (support m c) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      iintro ⟨H0, H1, H2, H3, H4, H5, H6, H7, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists d7; iexact H7

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = Pipeline.ΦA spec0 c from rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N from rfl,
    PhiS_pos m c cfg0.N (by rw [show cfg0.N = 25 from N_0]; exact Nat.succ_ne_zero _), PhiA_eq]
  iintro ⟨HS0, Hg⟩
  isplitl [HS0]
  · iexists _; iexact HS0
  iexact Hg

/-! ## The run and the frame -/

set_option backward.isDefEq.respectTransparency.types false in
/-- Every weakly fair execution of the program terminates; afterwards every array of the pipeline holds what the proof
    data say and every other buffer what it held when the region was entered. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Body

end
-- ==== Proof.LibMatmulPlain.lean ====
/-
  A plain matrix product read at an entry. For dimension numbers that contract the second axis of an [M, K] array with
  the first axis of a [K, N] array, with no batch axes, the product into a zero accumulator is, at entry (r, q), the sum
  over k of left(r, k) * right(k, q) on the extended reals.
-/
import Idealize.ShloMosaic.PureOps.Ideal
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem rank_contr_one : d.contr.rank = 1 := by rw [d.rank_contr, hlc]; rfl

include hlc in
theorem size_contr_zero : d.contr.size ⟨0, by rw [rank_contr_one d hlc]; exact Nat.one_pos⟩ = K := by
  have := d.size_contr 0 (by rw [hlc]; exact Nat.one_pos)
  rw [this]
  simp [hlc]

include hln hlb in
/-- The left operand is read in the row of the result entry … -/
theorem lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- … and the right operand in its column. -/
theorem rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The product into the zero accumulator at entry (r, q): the sum over the contracted axis. -/
theorem matmul_zero_apply {φ₁ φ₂ : FTy} (prec : Option ContractPrecision) (lhs : FVec Ideal ⟨2, ![M, K]⟩ φ₁)
    (rhs : FVec Ideal ⟨2, ![K, N]⟩ φ₂) (r : Fin M) (q : Fin N) :
    FloatOps.matmul d prec lhs rhs (constant ⟨2, ![M, N]⟩ .f32 0x00000000#32) (ix2 r q)
      = ∑ k : Fin K, lhs (ix2 r k) * rhs (ix2 k q) := by
  rw [Ideal.matmul_constant_zero_apply,
    ← Equiv.sum_comp (contrEquiv1 d K (rank_contr_one d hlc) (size_contr_zero d hlc)).symm]
  refine Finset.sum_congr rfl fun k _ => ?_
  have hk := contrEquiv1_symm_val d K (rank_contr_one d hlc) (size_contr_zero d hlc) k
  congr 1
  · refine congrArg lhs (funext fun a => Fin.ext ?_)
    match a with
    | ⟨0, _⟩ => exact lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact rhs_col d hln hrn hlb hrb _ _

end Cert.LibMatmulPlain

end
-- ==== Proof.LibDotsNT.lean ====
/-
  Matrix products read at an entry, on the extended reals.

  * Right operand contracted on its LAST axis: for dimension numbers that contract the second axis of an [M, K] array
    with the second axis of an [N, K] array, with no batch axes, the product at entry (r, q) is the sum over k of
    left(r, k) * right(q, k) -- for the matrix unit's product into a zero accumulator (`nt_matmul_zero_apply`) and
    for the host's dot_general (`nt_dotGeneral_apply`).
  * The host's dot_general with the plain dimension numbers, [M, K] by [K, N]: at entry (r, q) the sum over k of
    left(r, k) * right(k, q) (`plain_dotGeneral_apply`).
-/
import Idealize.ShloMosaic.PureOps.Ideal
import Idealize.ShloMosaic.PureOps.Ideal.Laws
import Idealize.ShloMosaic.Lib.ValueIdx

noncomputable section

open scoped BigOperators

namespace Cert.LibDotsNT

open Idealize.ShloMosaic Idealize.ShloMosaic.ValueIdx

section NT

variable {M K N : Nat} (d : DotDims ⟨2, ![M, K]⟩ ⟨2, ![N, K]⟩ ⟨2, ![M, N]⟩)
  (hlc : d.lhsContracting = [1]) (hrc : d.rhsContracting = [1]) (hln : d.lhsNonContracting = [0])
  (hrn : d.rhsNonContracting = [0]) (hlb : d.lhsBatch = []) (hrb : d.rhsBatch = [])

include hlc in
theorem nt_rank_contr_one : d.contr.rank = 1 := by rw [d.rank_contr, hlc]; rfl

include hlc in
theorem nt_size_contr_zero : d.contr.size ⟨0, by rw [nt_rank_contr_one d hlc]; exact Nat.one_pos⟩ = K := by
  have := d.size_contr 0 (by rw [hlc]; exact Nat.one_pos)
  rw [this]
  simp [hlc]

include hln hlb in
/-- The left operand is read in the row of the result entry ... -/
theorem nt_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- ... and the right operand in the row numbered by the result entry's column. -/
theorem nt_rhs_row (j : (⟨2, ![M, N]⟩ : Shape).Idx) (k : d.contr.Idx) : ((d.rhsIdx j k 0 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The contraction's sum re-indexed by the one contracted coordinate. -/
theorem nt_sum_apply {φ₁ φ₂ : FTy} (lhs : FVec Ideal ⟨2, ![M, K]⟩ φ₁) (rhs : FVec Ideal ⟨2, ![N, K]⟩ φ₂) (r : Fin M) (q : Fin N) :
    ∑ k : d.contr.Idx, lhs (d.lhsIdx (ix2 r q) k) * rhs (d.rhsIdx (ix2 r q) k)
      = ∑ k : Fin K, lhs (ix2 r k) * rhs (ix2 q k) := by
  rw [← Equiv.sum_comp (contrEquiv1 d K (nt_rank_contr_one d hlc) (nt_size_contr_zero d hlc)).symm]
  refine Finset.sum_congr rfl fun k _ => ?_
  have hk := contrEquiv1_symm_val d K (nt_rank_contr_one d hlc) (nt_size_contr_zero d hlc) k
  congr 1
  · refine congrArg lhs (funext fun a => Fin.ext ?_)
    match a with
    | ⟨0, _⟩ => exact nt_lhs_row d hln hlb _ _
    | ⟨1, _⟩ => exact (d.lhsIdx_val_of_single hlc _ _).trans hk
  · refine congrArg rhs (funext fun a => Fin.ext ?_)
    match a with
    | ⟨0, _⟩ => exact nt_rhs_row d hln hrn hlb hrb _ _
    | ⟨1, _⟩ => exact (d.rhsIdx_val_of_single hrc _ _).trans hk

include hlc hrc hln hrn hlb hrb in
/-- The matrix unit's product into the zero accumulator at entry (r, q). -/
theorem nt_matmul_zero_apply {φ₁ φ₂ : FTy} (prec : Option ContractPrecision) (lhs : FVec Ideal ⟨2, ![M, K]⟩ φ₁)
    (rhs : FVec Ideal ⟨2, ![N, K]⟩ φ₂) (r : Fin M) (q : Fin N) :
    FloatOps.matmul d prec lhs rhs (constant ⟨2, ![M, N]⟩ .f32 0x00000000#32) (ix2 r q)
      = ∑ k : Fin K, lhs (ix2 r k) * rhs (ix2 q k) := by
  rw [Ideal.matmul_constant_zero_apply]
  exact nt_sum_apply d hlc hrc hln hrn hlb hrb lhs rhs r q

include hlc hrc hln hrn hlb hrb in
/-- The host's dot_general at entry (r, q). -/
theorem nt_dotGeneral_apply {φ₁ φ₂ : FTy} (prec : Option ContractPrecision) (sched : HostSchedule)
    (lhs : FVec Ideal ⟨2, ![M, K]⟩ φ₁) (rhs : FVec Ideal ⟨2, ![N, K]⟩ φ₂) (r : Fin M) (q : Fin N) :
    FloatOps.dotGeneral d prec sched lhs rhs (ix2 r q) = ∑ k : Fin K, lhs (ix2 r k) * rhs (ix2 q k) := by
  rw [Ideal.dotGeneral_apply]
  exact nt_sum_apply d hlc hrc hln hrn hlb hrb lhs rhs r q

end NT

section Plain

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem plain_rank_contr_one : d.contr.rank = 1 := by rw [d.rank_contr, hlc]; rfl

include hlc in
theorem plain_size_contr_zero : d.contr.size ⟨0, by rw [plain_rank_contr_one d hlc]; exact Nat.one_pos⟩ = K := by
  have := d.size_contr 0 (by rw [hlc]; exact Nat.one_pos)
  rw [this]
  simp [hlc]

include hln hlb in
theorem plain_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
theorem plain_rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The host's dot_general with the plain dimension numbers at entry (r, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (q : Fin N) :
    FloatOps.dotGeneral d prec sched lhs rhs (ix2 r q) = ∑ k : Fin K, lhs (ix2 r k) * rhs (ix2 k q) := by
  rw [Ideal.dotGeneral_apply,
    ← Equiv.sum_comp (contrEquiv1 d K (plain_rank_contr_one d hlc) (plain_size_contr_zero d hlc)).symm]
  refine Finset.sum_congr rfl fun k _ => ?_
  have hk := contrEquiv1_symm_val d K (plain_rank_contr_one d hlc) (plain_size_contr_zero d hlc) k
  congr 1
  · refine congrArg lhs (funext fun a => Fin.ext ?_)
    match a with
    | ⟨0, _⟩ => exact plain_lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact plain_rhs_col d hln hrn hlb hrb _ _

end Plain

end Cert.LibDotsNT

end
-- ==== Proof.LibKeepdims.lean ====
/-
  Reading a row sum kept as a column. A sum along the rows of an `[a, b]` array is an `[a]` vector; kept as a
  column it is cast to `[a, 1]` and then spread over `[a, c]`. Read at `(p, q)` each step looks at row `p` only:
  the cast ignores the unit coordinate, the spreading ignores the column, and the sum ranges over the `b` entries
  of row `p`. The three steps are stated one by one, over indices written by their coordinates, and then composed.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` vector cast to the column `[a, 1]` reads, at `(i, u)`, the vector at `i`, whatever the unit
    coordinate `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Putting the summed coordinate `k` back into the reduced index `p` gives the entry `(p, k)`. -/
theorem lift_cols {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float sum along the second axis from the zero pattern, read at row `p`, is the sum of that row's entries
    on the extended reals. -/
theorem rowSum_apply {m n : ℕ} (src : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) src 0x00000000#32 h hφ hacc (ix1 p) = ∑ k : Fin n, src (ix2 p k) := by
  refine (Ideal.multiReduction_add_single src 0x00000000#32 h hφ hacc (ix1 p)).trans ?_
  exact Finset.sum_congr rfl fun k _ => congrArg src (lift_cols h p k)

/-- The three steps composed: the row sums of an `[a, b]` array, kept as a column and spread over `[a, c]`, read at
    `(p, q)` the sum of row `p`. -/
theorem rowSum_column_apply {a b c : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩) (hbc : (⟨2, ![a, 1]⟩ : Shape).Broadcasts ⟨2, ![a, c]⟩)
    (p : Fin a) (q : Fin c) :
    broadcastTo ⟨2, ![a, c]⟩ (shapeCast ⟨2, ![a, 1]⟩ (multiReduction .add [1] (⟨1, ![a]⟩ : Shape) src 0x00000000#32 h hφ hacc) hcast) hbc (ix2 p q)
      = ∑ k : Fin b, src (ix2 p k) :=
  (broadcastTo_a1_ab_apply _ hbc p q).trans ((shapeCast_a_a1_apply _ hcast p 0).trans (rowSum_apply src h hφ hacc p))

/-- One row `[1, b]`, cast to its own shape and spread over `[a, b]`, reads at `(p, q)` the row's entry `q`. -/
theorem row_spread_apply {a b : ℕ} (v : (⟨2, ![1, b]⟩ : Shape).Idx → α) (hcast : (⟨2, ![1, b]⟩ : Shape).ShapeCasts ⟨2, ![1, b]⟩)
    (hbc : (⟨2, ![1, b]⟩ : Shape).Broadcasts ⟨2, ![a, b]⟩) (p : Fin a) (q : Fin b) :
    broadcastTo ⟨2, ![a, b]⟩ (shapeCast ⟨2, ![1, b]⟩ v hcast) hbc (ix2 p q) = v (ix2 (0 : Fin 1) q) :=
  (broadcastTo_1b_ab_apply _ hbc p q).trans (congrFun (shapeCast_self v hcast) _)

end Cert.LibKeepdims

end
-- ==== Proof.LibDenseLayer.lean ====
/-
  One dense layer of the network, read at an entry of its result, on the extended reals.

  For a feature array h : [a, k], a weight matrix W : [k, n], a column of row scales S : [a, 1] and a row of
  biases B : [1, n] the layer computes the product P = h W and the affine form P * S + B, the scale taken per row and
  the bias per column.  The tile of a grid point spells this with the matrix unit's product of the operands rounded
  to bfloat16 (a change of format, which does nothing to an extended real), a column spread over the columns and a
  row spread over the rows; the host spells it with a dot_general and two broadcast_in_dim.  Both spellings are the
  same function of the four arrays, index by index: `prod` and `affine` below.

  Also here: a vector laid out as a column [a] -> [a, 1], or as a row [n] -> [1, n], is the same array whether it is
  written as a reshape or as a broadcast_in_dim; and adding three arrays does not depend on the grouping.
-/
import Idealize.ShloMosaic.Lib.Pipeline.Value
import Idealize.ShloMosaic.Lib.ValueIdx
import Idealize.ShloMosaic.Lib.ValueLayout
import Idealize.ShloMosaic.PureOps.Ideal.Laws
import proofs.«147089_g55181739819284_cont_9to1_m_1118_3_alg».proof.Proof.LibMatmulPlain
import proofs.«147089_g55181739819284_cont_9to1_m_1118_3_alg».proof.Proof.LibDotsNT
import proofs.«147089_g55181739819284_cont_9to1_m_1118_3_alg».proof.Proof.LibKeepdims

noncomputable section

open scoped BigOperators

namespace Cert.Dense

open Idealize.ShloMosaic Idealize.ShloMosaic.ValueIdx

variable {a k n : ℕ}

/-- The product of an [a, k] array and a [k, n] array at entry (r, q): the sum over c of h(r, c) * W(c, q). -/
def prod (h : (⟨2, ![a, k]⟩ : Shape).Idx → EReal) (W : (⟨2, ![k, n]⟩ : Shape).Idx → EReal) :
    (⟨2, ![a, n]⟩ : Shape).Idx → EReal :=
  fun i => ∑ c : Fin k, h (ix2 (i 0) c) * W (ix2 c (i 1))

/-- The product with row r scaled by S(r, 0) and B(0, q) added in column q. -/
def affine (h : (⟨2, ![a, k]⟩ : Shape).Idx → EReal) (W : (⟨2, ![k, n]⟩ : Shape).Idx → EReal)
    (S : (⟨2, ![a, 1]⟩ : Shape).Idx → EReal) (B : (⟨2, ![1, n]⟩ : Shape).Idx → EReal) :
    (⟨2, ![a, n]⟩ : Shape).Idx → EReal :=
  fun i => prod h W i * S (ix2 (i 0) (0 : Fin 1)) + B (ix2 (0 : Fin 1) (i 1))

/-- The product with B(0, q) added in column q (no row scale). -/
def biased (h : (⟨2, ![a, k]⟩ : Shape).Idx → EReal) (W : (⟨2, ![k, n]⟩ : Shape).Idx → EReal)
    (B : (⟨2, ![1, n]⟩ : Shape).Idx → EReal) : (⟨2, ![a, n]⟩ : Shape).Idx → EReal :=
  fun i => prod h W i + B (ix2 (0 : Fin 1) (i 1))

theorem prod_ix2 (h : (⟨2, ![a, k]⟩ : Shape).Idx → EReal) (W : (⟨2, ![k, n]⟩ : Shape).Idx → EReal) (r : Fin a) (q : Fin n) :
    prod h W (ix2 r q) = ∑ c : Fin k, h (ix2 r c) * W (ix2 c q) := rfl

section Products

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The matrix unit's product of the two operands rounded to bfloat16, into a zero accumulator, is the product. -/
theorem matmul_eq_prod (x0 : FVec Ideal ⟨2, ![a, k]⟩ .f32) (x1 : FVec Ideal ⟨2, ![k, n]⟩ .f32)
    (hb : FTy.bf16.bits < FTy.f32.bits) :
    matmul d none (truncf .bf16 x0 hb) (truncf .bf16 x1 hb) (constant (F := Ideal) ⟨2, ![a, n]⟩ .f32 0x00000000#32)
      = prod x0 x1 := by
  funext j
  obtain ⟨r, q, rfl⟩ : ∃ (r : Fin a) (q : Fin n), j = ix2 r q := ⟨j 0, j 1, eq_ix2 j⟩
  exact Cert.LibMatmulPlain.matmul_zero_apply d hlc hrc hln hrn hlb hrb none _ _ r q

include hlc hrc hln hrn hlb hrb in
/-- The host's dot_general is the product. -/
theorem dotGeneral_eq_prod (h : FVec Ideal ⟨2, ![a, k]⟩ .f32) (W : FVec Ideal ⟨2, ![k, n]⟩ .f32) :
    Host.dotGeneral (F := Ideal) d none h W = prod h W := by
  funext j
  obtain ⟨r, q, rfl⟩ : ∃ (r : Fin a) (q : Fin n), j = ix2 r q := ⟨j 0, j 1, eq_ix2 j⟩
  exact Cert.LibDotsNT.plain_dotGeneral_apply d hlc hrc hln hrn hlb hrb none .single h W r q

end Products

/-- The tile's spelling of the scale and the bias: the column cast to its own shape and spread over the columns, the
    row cast to its own shape and spread over the rows. -/
theorem tile_affine (P : FVec Ideal ⟨2, ![a, n]⟩ .f32) (x2 : FVec Ideal ⟨2, ![a, 1]⟩ .f32) (x3 : FVec Ideal ⟨2, ![1, n]⟩ .f32)
    (hc2 : (⟨2, ![a, 1]⟩ : Shape).ShapeCasts ⟨2, ![a, 1]⟩) (hb2 : (⟨2, ![a, 1]⟩ : Shape).Broadcasts ⟨2, ![a, n]⟩)
    (hc3 : (⟨2, ![1, n]⟩ : Shape).ShapeCasts ⟨2, ![1, n]⟩) (hb3 : (⟨2, ![1, n]⟩ : Shape).Broadcasts ⟨2, ![a, n]⟩)
    (r : Fin a) (q : Fin n) :
    addf (mulf P (broadcastTo ⟨2, ![a, n]⟩ (shapeCast ⟨2, ![a, 1]⟩ x2 hc2) hb2))
        (broadcastTo ⟨2, ![a, n]⟩ (shapeCast ⟨2, ![1, n]⟩ x3 hc3) hb3) (ix2 r q)
      = P (ix2 r q) * x2 (ix2 r (0 : Fin 1)) + x3 (ix2 (0 : Fin 1) q) := by
  rw [addf_apply, mulf_apply, Cert.LibKeepdims.row_spread_apply, Cert.LibKeepdims.broadcastTo_a1_ab_apply, shapeCast_self]

/-- The tile's spelling of the bias alone. -/
theorem tile_biased (P : FVec Ideal ⟨2, ![a, n]⟩ .f32) (x3 : FVec Ideal ⟨2, ![1, n]⟩ .f32)
    (hc3 : (⟨2, ![1, n]⟩ : Shape).ShapeCasts ⟨2, ![1, n]⟩) (hb3 : (⟨2, ![1, n]⟩ : Shape).Broadcasts ⟨2, ![a, n]⟩)
    (r : Fin a) (q : Fin n) :
    addf P (broadcastTo ⟨2, ![a, n]⟩ (shapeCast ⟨2, ![1, n]⟩ x3 hc3) hb3) (ix2 r q)
      = P (ix2 r q) + x3 (ix2 (0 : Fin 1) q) := by
  rw [addf_apply, Cert.LibKeepdims.row_spread_apply]

/-- A column [a, 1] laid over [a, n] by broadcast_in_dim along both axes reads, at (r, q), the column's entry of row r. -/
theorem bcast_col_apply {α : Type} (S : (⟨2, ![a, 1]⟩ : Shape).Idx → α)
    (hS : (⟨2, ![a, 1]⟩ : Shape).BroadcastsInDim ⟨2, ![a, n]⟩ ![0, 1]) (r : Fin a) (q : Fin n) :
    broadcastInDim ⟨2, ![a, n]⟩ ![0, 1] hS S (ix2 r q) = S (ix2 r (0 : Fin 1)) := by
  refine broadcastInDim_apply ![0, 1] hS S (ix2 r q) (ix2 r (0 : Fin 1)) fun ax => ?_
  match ax with
  | ⟨0, _⟩ =>
    show r.val = if a = 1 then 0 else r.val
    split
    · have := r.isLt; omega
    · rfl
  | ⟨1, _⟩ => rfl

/-- A row [1, n] laid over [a, n] by broadcast_in_dim along both axes reads, at (r, q), the row's entry of column q. -/
theorem bcast_row_apply {α : Type} (B : (⟨2, ![1, n]⟩ : Shape).Idx → α)
    (hB : (⟨2, ![1, n]⟩ : Shape).BroadcastsInDim ⟨2, ![a, n]⟩ ![0, 1]) (r : Fin a) (q : Fin n) :
    broadcastInDim ⟨2, ![a, n]⟩ ![0, 1] hB B (ix2 r q) = B (ix2 (0 : Fin 1) q) := by
  refine broadcastInDim_apply ![0, 1] hB B (ix2 r q) (ix2 (0 : Fin 1) q) fun ax => ?_
  match ax with
  | ⟨0, _⟩ => rfl
  | ⟨1, _⟩ =>
    show q.val = if n = 1 then 0 else q.val
    split
    · have := q.isLt; omega
    · rfl

/-- The host's spelling of the affine form is `affine`. -/
theorem host_affine (P : FVec Ideal ⟨2, ![a, n]⟩ .f32) (S : FVec Ideal ⟨2, ![a, 1]⟩ .f32) (B : FVec Ideal ⟨2, ![1, n]⟩ .f32)
    (hS : (⟨2, ![a, 1]⟩ : Shape).BroadcastsInDim ⟨2, ![a, n]⟩ ![0, 1])
    (hB : (⟨2, ![1, n]⟩ : Shape).BroadcastsInDim ⟨2, ![a, n]⟩ ![0, 1]) (r : Fin a) (q : Fin n) :
    addf (mulf P (broadcastInDim ⟨2, ![a, n]⟩ ![0, 1] hS S)) (broadcastInDim ⟨2, ![a, n]⟩ ![0, 1] hB B) (ix2 r q)
      = P (ix2 r q) * S (ix2 r (0 : Fin 1)) + B (ix2 (0 : Fin 1) q) := by
  rw [addf_apply, mulf_apply, bcast_col_apply, bcast_row_apply]

/-- The host's spelling of the bias alone. -/
theorem host_biased (P : FVec Ideal ⟨2, ![a, n]⟩ .f32) (B : FVec Ideal ⟨2, ![1, n]⟩ .f32)
    (hB : (⟨2, ![1, n]⟩ : Shape).BroadcastsInDim ⟨2, ![a, n]⟩ ![0, 1]) (r : Fin a) (q : Fin n) :
    addf P (broadcastInDim ⟨2, ![a, n]⟩ ![0, 1] hB B) (ix2 r q) = P (ix2 r q) + B (ix2 (0 : Fin 1) q) := by
  rw [addf_apply, bcast_row_apply]

section HostForms

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The affine form as the host spells it: the dot_general times the scale column laid over the columns, plus the bias
    row laid over the rows. -/
theorem affine_eq_host (h : FVec Ideal ⟨2, ![a, k]⟩ .f32) (W : FVec Ideal ⟨2, ![k, n]⟩ .f32)
    (S : FVec Ideal ⟨2, ![a, 1]⟩ .f32) (B : FVec Ideal ⟨2, ![1, n]⟩ .f32)
    (hS : (⟨2, ![a, 1]⟩ : Shape).BroadcastsInDim ⟨2, ![a, n]⟩ ![0, 1])
    (hB : (⟨2, ![1, n]⟩ : Shape).BroadcastsInDim ⟨2, ![a, n]⟩ ![0, 1]) :
    affine h W S B
      = addf (mulf (Host.dotGeneral (F := Ideal) d none h W) (broadcastInDim ⟨2, ![a, n]⟩ ![0, 1] hS S))
          (broadcastInDim ⟨2, ![a, n]⟩ ![0, 1] hB B) := by
  funext j
  obtain ⟨r, q, rfl⟩ : ∃ (r : Fin a) (q : Fin n), j = ix2 r q := ⟨j 0, j 1, eq_ix2 j⟩
  rw [host_affine, dotGeneral_eq_prod d hlc hrc hln hrn hlb hrb]
  rfl

include hlc hrc hln hrn hlb hrb in
/-- The biased form as the host spells it. -/
theorem biased_eq_host (h : FVec Ideal ⟨2, ![a, k]⟩ .f32) (W : FVec Ideal ⟨2, ![k, n]⟩ .f32)
    (B : FVec Ideal ⟨2, ![1, n]⟩ .f32) (hB : (⟨2, ![1, n]⟩ : Shape).BroadcastsInDim ⟨2, ![a, n]⟩ ![0, 1]) :
    biased h W B
      = addf (Host.dotGeneral (F := Ideal) d none h W) (broadcastInDim ⟨2, ![a, n]⟩ ![0, 1] hB B) := by
  funext j
  obtain ⟨r, q, rfl⟩ : ∃ (r : Fin a) (q : Fin n), j = ix2 r q := ⟨j 0, j 1, eq_ix2 j⟩
  rw [host_biased, dotGeneral_eq_prod d hlc hrc hln hrn hlb hrb]
  rfl

end HostForms

/-- A vector laid out as a column: the reshape [a] -> [a, 1] and the broadcast_in_dim along axis 0 are one array. -/
theorem column_cast_eq_bcast {α : Type} (x : (⟨1, ![a]⟩ : Shape).Idx → α)
    (hc : (⟨1, ![a]⟩ : Shape).ShapeCasts ⟨2, ![a, 1]⟩) (hb : (⟨1, ![a]⟩ : Shape).BroadcastsInDim ⟨2, ![a, 1]⟩ ![0]) :
    shapeCast ⟨2, ![a, 1]⟩ x hc = broadcastInDim ⟨2, ![a, 1]⟩ ![0] hb x := by
  funext j
  obtain ⟨r, u, rfl⟩ : ∃ (r : Fin a) (u : Fin 1), j = ix2 r u := ⟨j 0, j 1, eq_ix2 j⟩
  rw [Cert.LibKeepdims.shapeCast_a_a1_apply]
  refine (broadcastInDim_apply ![0] hb x (ix2 r u) (ix1 r) fun ax => ?_).symm
  match ax with
  | ⟨0, _⟩ =>
    show r.val = if a = 1 then 0 else r.val
    split
    · have := r.isLt; omega
    · rfl

/-- A vector laid out as a row: the reshape [n] -> [1, n] and the broadcast_in_dim along axis 1 are one array. -/
theorem row_cast_eq_bcast {α : Type} (x : (⟨1, ![n]⟩ : Shape).Idx → α)
    (hc : (⟨1, ![n]⟩ : Shape).ShapeCasts ⟨2, ![1, n]⟩) (hb : (⟨1, ![n]⟩ : Shape).BroadcastsInDim ⟨2, ![1, n]⟩ ![1]) :
    shapeCast ⟨2, ![1, n]⟩ x hc = broadcastInDim ⟨2, ![1, n]⟩ ![1] hb x := by
  funext j
  obtain ⟨u, q, rfl⟩ : ∃ (u : Fin 1) (q : Fin n), j = ix2 u q := ⟨j 0, j 1, eq_ix2 j⟩
  rw [shapeCast_a_1a_apply]
  refine (broadcastInDim_apply ![1] hb x (ix2 u q) (ix1 q) fun ax => ?_).symm
  match ax with
  | ⟨0, _⟩ =>
    show q.val = if n = 1 then 0 else q.val
    split
    · have := q.isLt; omega
    · rfl

/-- Adding three arrays: the grouping does not matter (addition of extended reals is associative). -/
theorem addf_assoc {s : Shape} {φ : FTy} (x y z : FVec Ideal s φ) : addf x (addf y z) = addf (addf x y) z := by
  funext i
  rw [addf_apply, addf_apply, addf_apply, addf_apply, add_assoc]

end Cert.Dense

end
-- ==== Proof.Spec.lean ====
/-
  The functions both programs compute, entry by entry, over the extended reals.

  With z : [10000, 128] the hidden layer and C : [10, 128] the cluster rows, the similarity of row r of z with cluster q is
  the inner product of the two rows divided by the product of their norms, the product guarded from below by the float
  word of 1e-8; the second result is the softmax of each row of similarities, the row's maximum taken from minus infinity
  and subtracted before the exponential. The first result is tanh of the adjacency matrix times z W₂.
-/
import Idealize.ShloMosaic.PureOps.Ideal
import Idealize.ShloMosaic.PureOps.Ideal.Laws
import Idealize.ShloMosaic.Lib.ValueIdx
import proofs.«147089_g55181739819284_cont_9to1_m_1118_3_alg».proof.Proof.LibDenseLayer

noncomputable section

open scoped BigOperators

namespace Cert.Spec

open Idealize.ShloMosaic Idealize.ShloMosaic.ValueIdx

/-- The lower guard of the cosine's denominator. -/
def guard : EReal := Ideal.ofBits .f32 0x322BCC77#32

/-- The value a row maximum starts from. -/
def negInf : EReal := Ideal.ofBits .f32 0xFF800000#32

/-- The guarded cosine similarity of row `i 0` of `Z` with row `i 1` of `C`. -/
def cosine (Z : (⟨2, ![10000, 128]⟩ : Shape).Idx → EReal) (C : (⟨2, ![10, 128]⟩ : Shape).Idx → EReal) :
    (⟨2, ![10000, 10]⟩ : Shape).Idx → EReal := fun i =>
  Ideal.div (∑ k : Fin 128, Z (ix2 (i 0) k) * C (ix2 (i 1) k))
    (max (Ideal.sqrt (∑ k : Fin 128, Z (ix2 (i 0) k) * Z (ix2 (i 0) k))
        * Ideal.sqrt (∑ k : Fin 128, C (ix2 (i 1) k) * C (ix2 (i 1) k))) guard)

theorem cosine_ix2 (Z : (⟨2, ![10000, 128]⟩ : Shape).Idx → EReal) (C : (⟨2, ![10, 128]⟩ : Shape).Idx → EReal)
    (r : Fin 10000) (q : Fin 10) :
    cosine Z C (ix2 r q) = Ideal.div (∑ k : Fin 128, Z (ix2 r k) * C (ix2 q k))
      (max (Ideal.sqrt (∑ k : Fin 128, Z (ix2 r k) * Z (ix2 r k)) * Ideal.sqrt (∑ k : Fin 128, C (ix2 q k) * C (ix2 q k))) guard) := rfl

/-- The maximum of row `r`, from minus infinity. -/
def rowMax (Y : (⟨2, ![10000, 10]⟩ : Shape).Idx → EReal) (r : Fin 10000) : EReal :=
  (Finset.univ : Finset (Fin 10)).fold max negInf (fun q => Y (ix2 r q))

/-- The softmax of each row. -/
def softmaxRows (Y : (⟨2, ![10000, 10]⟩ : Shape).Idx → EReal) : (⟨2, ![10000, 10]⟩ : Shape).Idx → EReal := fun i =>
  Ideal.div (Ideal.exp (Y i - rowMax Y (i 0))) (∑ q : Fin 10, Ideal.exp (Y (ix2 (i 0) q) - rowMax Y (i 0)))

theorem softmaxRows_ix2 (Y : (⟨2, ![10000, 10]⟩ : Shape).Idx → EReal) (r : Fin 10000) (q : Fin 10) :
    softmaxRows Y (ix2 r q)
      = Ideal.div (Ideal.exp (Y (ix2 r q) - rowMax Y r)) (∑ q' : Fin 10, Ideal.exp (Y (ix2 r q') - rowMax Y r)) := rfl

/-- tanh of the product of an [a, k] array with a [k, n] array. -/
def tanhProd {a k n : ℕ} (A : (⟨2, ![a, k]⟩ : Shape).Idx → EReal) (S : (⟨2, ![k, n]⟩ : Shape).Idx → EReal) :
    (⟨2, ![a, n]⟩ : Shape).Idx → EReal := fun i => Ideal.tanh (Cert.Dense.prod A S i)

theorem tanhProd_ix2 {a k n : ℕ} (A : (⟨2, ![a, k]⟩ : Shape).Idx → EReal) (S : (⟨2, ![k, n]⟩ : Shape).Idx → EReal)
    (r : Fin a) (q : Fin n) : tanhProd A S (ix2 r q) = Ideal.tanh (∑ c : Fin k, A (ix2 r c) * S (ix2 c q)) := rfl

end Cert.Spec

end
-- ==== Proof.LibRowOps.lean ====
/-
  Rows of a matrix and slabs of a rank-3 array, read at an entry.

  * The largest entry of each row of an `[m, n]` array, taken from a starting word: at row `p` it is the fold of
    `max` over the `n` entries of that row; the same for the host's reduction with a maximum body from an initial
    value.
  * An `[a, b]` array cast to `[a, b, 1]` reads, at `(p, k, u)`, the entry `(p, k)`; spread over `[a, b, c]`
    it reads, at `(p, k, j)`, the entry `(p, k, 0)`: a per-row, per-column scalar laid along the last axis.
  * A sum of an `[a, b, c]` array along its middle axis reads, at `(p, j)`, the sum over `k` of the entries
    `(p, k, j)`.
-/
import Idealize.ShloMosaic.Lib.Pipeline.Value
import Idealize.ShloMosaic.Lib.ValueIdx
import Idealize.ShloMosaic.PureOps.Ideal.Laws

noncomputable section

open scoped BigOperators

namespace Cert.LibRowOps

open Idealize.ShloMosaic Idealize.ShloMosaic.ValueIdx

variable {α : Type}

/-- Putting the dropped column coordinate `k` back into the row index `p` gives the entry `(p, k)`. -/
theorem lift_row {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float maximum along the second axis from the word `acc`, read at row `p`: the fold of `max` over that
    row's entries, from the word's value. -/
theorem rowMax_apply {m n : ℕ} (src : FVec Ideal ⟨2, ![m, n]⟩ .f32) (acc : BitVec 32)
    (h : (⟨2, ![m, n]⟩ : Shape).Reduces [1] (⟨1, ![m]⟩ : Shape)) (hφ : FKind.Formats .f32)
    (hacc : acc = FKind.maximumf.neutral .f32 hφ) (p : Fin m) :
    multiReduction .maximumf [1] (⟨1, ![m]⟩ : Shape) src acc h hφ hacc (ix1 p)
      = (Finset.univ : Finset (Fin n)).fold max (Ideal.ofBits .f32 acc) (fun k => src (ix2 p k)) := by
  refine (Ideal.multiReduction_maximumf_single src acc h hφ hacc (ix1 p)).trans ?_
  have hf : (src ∘ h.lift (ix1 p)) = fun k : Fin n => src (ix2 p k) := funext fun k => congrArg src (lift_row h p k)
  exact congrArg (fun f => Finset.fold max (Ideal.ofBits .f32 acc) f (Finset.univ : Finset (Fin n))) hf

/-- The host's reduction with a maximum body along the second axis, read at row `p`: the fold of `max` over that
    row's entries, from the initial value. -/
theorem hostRowMax_apply {m n : ℕ} {u : Shape} (x : (⟨2, ![m, n]⟩ : Shape).Idx → Ideal .f32) (init : u.Idx → Ideal .f32)
    (h' : (⟨2, ![m, n]⟩ : Shape).ReducesTo [1] (⟨1, ![m]⟩ : Shape)) (h : (⟨2, ![m, n]⟩ : Shape).Reduces [1] (⟨1, ![m]⟩ : Shape))
    (hu : 0 < u.numel) (p : Fin m) :
    Host.reduce FloatOps.maximumf x init h' hu (ix1 p)
      = (Finset.univ : Finset (Fin n)).fold max (init (Shape.Idx.first hu)) (fun k => x (ix2 p k)) := by
  refine (Host.reduce_eq_fold_single FloatOps.maximumf x init h' h hu (ix1 p)).trans ?_
  have hf : (x ∘ h.lift (ix1 p)) = fun k : Fin n => x (ix2 p k) := funext fun k => congrArg x (lift_row h p k)
  exact congrArg (fun f => Finset.fold max (init (Shape.Idx.first hu)) f (Finset.univ : Finset (Fin n))) hf

/-- An `[a, b]` array cast to `[a, b, 1]` reads, at `(p, k, u)`, the array at `(p, k)`: both positions are the
    same one in row-major order. -/
theorem shapeCast_ab_ab1_apply {a b : ℕ} (x : (⟨2, ![a, b]⟩ : Shape).Idx → α)
    (h : (⟨2, ![a, b]⟩ : Shape).ShapeCasts ⟨3, ![a, b, 1]⟩) (p : Fin a) (k : Fin b) (u : Fin 1) :
    shapeCast ⟨3, ![a, b, 1]⟩ x h (ix3 p k u) = x (ix2 p k) :=
  shapeCast_apply x h _ _ (by
    have hu : u.val = 0 := by omega
    rw [Shape.rowMajor_val_three, Shape.rowMajor_val_two]
    show p.val * b + k.val = (p.val * b + k.val) * 1 + u.val
    rw [hu, Nat.mul_one, Nat.add_zero])

/-- An `[a, b, 1]` array spread over `[a, b, c]` reads, at `(p, k, j)`, the array at `(p, k, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (k : Fin b) (j : Fin c) :
    broadcastTo ⟨3, ![a, b, c]⟩ v h (ix3 p k j) = v (ix3 p k (0 : Fin 1)) := by
  refine broadcastTo_apply v h (ix3 p k j) (ix3 p k (0 : Fin 1)) fun ax => ?_
  match ax with
  | ⟨0, _⟩ =>
    show p.val = if a = 1 then 0 else p.val
    split
    · have := p.isLt; omega
    · rfl
  | ⟨1, _⟩ =>
    show k.val = if b = 1 then 0 else k.val
    split
    · have := k.isLt; omega
    · rfl
  | ⟨2, _⟩ => rfl

/-- Putting the dropped middle coordinate `k` back into `(p, j)` gives the entry `(p, k, j)`. -/
theorem lift_mid {a b c : ℕ} (h : (⟨3, ![a, b, c]⟩ : Shape).Reduces [1] (⟨2, ![a, c]⟩ : Shape)) (p : Fin a) (j : Fin c)
    (k : Fin ((⟨3, ![a, b, c]⟩ : Shape).size 1)) : h.lift (ix2 p j) k = ix3 p (⟨k.val, k.isLt⟩ : Fin b) j := by
  funext d; apply Fin.ext
  fin_cases d <;> rfl

/-- A float sum along the middle axis from the zero word, read at `(p, j)`: the sum over `k` of the entries
    `(p, k, j)`, on the extended reals. -/
theorem midSum_apply {a b c : ℕ} (src : FVec Ideal ⟨3, ![a, b, c]⟩ .f32) (acc : BitVec 32)
    (h : (⟨3, ![a, b, c]⟩ : Shape).Reduces [1] (⟨2, ![a, c]⟩ : Shape)) (hφ : FKind.Formats .f32)
    (hacc : acc = FKind.add.neutral .f32 hφ) (p : Fin a) (j : Fin c) :
    multiReduction .add [1] (⟨2, ![a, c]⟩ : Shape) src acc h hφ hacc (ix2 p j) = ∑ k : Fin b, src (ix3 p k j) := by
  refine (Ideal.multiReduction_add_single src acc h hφ hacc (ix2 p j)).trans ?_
  exact Finset.sum_congr rfl fun k _ => congrArg src (lift_mid h p j k)

end Cert.LibRowOps

end
-- ==== Proof.KernelSpell.lean ====
/-
  The kernel's four payloads, read over the extended reals, are the specification's functions of their operands.
-/
import proofs.«147089_g55181739819284_cont_9to1_m_1118_3_alg».proof.Proof.Gen.KernelIdeal.Skeleton
import proofs.«147089_g55181739819284_cont_9to1_m_1118_3_alg».proof.Proof.Spec
import proofs.«147089_g55181739819284_cont_9to1_m_1118_3_alg».proof.Proof.LibRowOps
import Idealize.ShloMosaic.Lib.ValueLayout

noncomputable section

open scoped BigOperators

namespace Cert.KernelIdeal.Spell

open Cert.KernelIdeal Cert.KernelIdeal.Gen
open Idealize.ShloMosaic Idealize.ShloMosaic.ValueIdx

/-! ## The hidden layer and its product with the second weight -/

/-- z = x W₁ + b. -/
theorem pay2_eq (x0 : FVec Ideal S10000x128 .f32) (x2 : FVec Ideal S128x128 .f32) (x3 : FVec Ideal S1x128 .f32) :
    k0_pay2 (F := Ideal) x0 x2 x3 = Cert.Dense.biased x0 x2 x3 := by
  funext j
  obtain ⟨r, q, rfl⟩ : ∃ (r : Fin 10000) (q : Fin 128), j = ix2 r q := ⟨j 0, j 1, eq_ix2 j⟩
  unfold k0_pay2
  refine (Cert.Dense.tile_biased _ x3 shapeCasts_S1x128_S1x128 broadcasts_S1x128_S10000x128 r q).trans ?_
  refine congrArg (· + x3 (ix2 (0 : Fin 1) q)) ?_
  refine (Cert.LibMatmulPlain.matmul_zero_apply dot_S10000x128_S128x128_S10000x128_1_0_0_1_n_n rfl rfl rfl rfl rfl rfl none _ x2 r q).trans ?_
  rw [shapeCast_self]
  rfl

/-- z W₂. -/
theorem pay3_eq (x0 : FVec Ideal S10000x128 .f32) (x2 : FVec Ideal S128x128 .f32) (x3 : FVec Ideal S1x128 .f32)
    (x4 : FVec Ideal S128x128 .f32) :
    k0_pay3 (F := Ideal) x0 x2 x3 x4 = Cert.Dense.prod (Cert.Dense.biased x0 x2 x3) x4 := by
  funext j
  obtain ⟨r, q, rfl⟩ : ∃ (r : Fin 10000) (q : Fin 128), j = ix2 r q := ⟨j 0, j 1, eq_ix2 j⟩
  unfold k0_pay3
  rw [shapeCast_self, pay2_eq]
  exact Cert.LibMatmulPlain.matmul_zero_apply dot_S10000x128_S128x128_S10000x128_1_0_0_1_n_n rfl rfl rfl rfl rfl rfl none _ x4 r q

/-- tanh of a block of 400 rows of the adjacency matrix times the scratch. -/
theorem pay1_apply (x1 : FVec Ideal S400x10000 .f32) (s : FVec Ideal S10000x128 .f32) (p : Fin 400) (q : Fin 128) :
    k0_pay1 (F := Ideal) x1 s (ix2 p q) = Ideal.tanh (∑ k : Fin 10000, x1 (ix2 p k) * s (ix2 k q)) := by
  unfold k0_pay1
  refine congrArg Ideal.tanh ?_
  refine (Cert.LibMatmulPlain.matmul_zero_apply dot_S400x10000_S10000x128_S400x128_1_0_0_1_n_n rfl rfl rfl rfl rfl rfl none _ _ p q).trans ?_
  rw [shapeCast_self]
  rfl

/-! ## The similarities -/

/-- The kernel's spelling of the guarded cosine. -/
def kCosine (Z : FVec Ideal S10000x128 .f32) (C : FVec Ideal S10x128 .f32) : FVec Ideal S10000x10 .f32 :=
  divf (matmul dot_S10000x128_S10x128_S10000x10_1_1_0_0_n_n none Z C (constant S10000x10 .f32 0x00000000#32))
    (maximumf
      (mulf
        (broadcastTo S10000x10 (sqrt (shapeCast S10000x1 (multiReduction .add [1] S10000 (mulf Z Z) 0x00000000#32 reduces_S10000x128_S10000 (.inl rfl) rfl) shapeCasts_S10000_S10000x1)) broadcasts_S10000x1_S10000x10)
        (broadcastTo S10000x10 (shapeCast S1x10 (sqrt (multiReduction .add [1] S10 (mulf C C) 0x00000000#32 reduces_S10x128_S10 (.inl rfl) rfl)) shapeCasts_S10_S1x10) broadcasts_S1x10_S10000x10))
      (broadcast S10000x10 (Scalar.ofBits .f32 0x322BCC77#32)))

/-- The kernel's spelling of a row maximum laid back over the row. -/
def kRowMax (Y : FVec Ideal S10000x10 .f32) : FVec Ideal S10000x10 .f32 :=
  broadcastTo S10000x10 (shapeCast S10000x1 (multiReduction .maximumf [1] S10000 Y 0xFF800000#32 reduces_S10000x10_S10000 (.inl rfl) rfl) shapeCasts_S10000_S10000x1) broadcasts_S10000x1_S10000x10

/-- The kernel's spelling of a row sum laid back over the row. -/
def kRowSum (Y : FVec Ideal S10000x10 .f32) : FVec Ideal S10000x10 .f32 :=
  broadcastTo S10000x10 (shapeCast S10000x1 (multiReduction .add [1] S10000 Y 0x00000000#32 reduces_S10000x10_S10000 (.inl rfl) rfl) shapeCasts_S10000_S10000x1) broadcasts_S10000x1_S10000x10

/-- The kernel's spelling of the softmax of each row. -/
def kSoftmax (Y : FVec Ideal S10000x10 .f32) : FVec Ideal S10000x10 .f32 :=
  divf (exp (subf Y (kRowMax Y))) (kRowSum (exp (subf Y (kRowMax Y))))

/-- The fourth payload is the softmax of the cosine of the hidden layer with the cluster rows. -/
theorem pay4_spelt (x0 : FVec Ideal S10000x128 .f32) (x2 : FVec Ideal S128x128 .f32) (x3 : FVec Ideal S1x128 .f32)
    (x5 : FVec Ideal S10x128 .f32) :
    k0_pay4 (F := Ideal) x0 x2 x3 x5 = kSoftmax (kCosine (k0_pay2 (F := Ideal) x0 x2 x3) x5) := rfl

theorem kCosine_eq (Z : FVec Ideal S10000x128 .f32) (C : FVec Ideal S10x128 .f32) : kCosine Z C = Cert.Spec.cosine Z C := by
  funext j
  obtain ⟨r, q, rfl⟩ : ∃ (r : Fin 10000) (q : Fin 10), j = ix2 r q := ⟨j 0, j 1, eq_ix2 j⟩
  rw [Cert.Spec.cosine_ix2]
  unfold kCosine
  rw [divf_apply, maximumf_apply, mulf_apply, broadcast_apply]
  refine congrArg₂ Ideal.div ?_ (congrArg₂ max (congrArg₂ (· * ·) ?_ ?_) rfl)
  · exact Cert.LibDotsNT.nt_matmul_zero_apply dot_S10000x128_S10x128_S10000x10_1_1_0_0_n_n rfl rfl rfl rfl rfl rfl none Z C r q
  · refine (Cert.LibKeepdims.broadcastTo_a1_ab_apply _ broadcasts_S10000x1_S10000x10 r q).trans ?_
    show Ideal.sqrt (shapeCast S10000x1 _ shapeCasts_S10000_S10000x1 (ix2 r (0 : Fin 1))) = _
    refine congrArg Ideal.sqrt ?_
    refine (Cert.LibKeepdims.shapeCast_a_a1_apply _ shapeCasts_S10000_S10000x1 r 0).trans ?_
    exact Cert.LibKeepdims.rowSum_apply (mulf Z Z) reduces_S10000x128_S10000 (.inl rfl) rfl r
  · refine (broadcastTo_1b_ab_apply _ broadcasts_S1x10_S10000x10 r q).trans ?_
    refine (shapeCast_a_1a_apply _ shapeCasts_S10_S1x10 0 q).trans ?_
    show Ideal.sqrt (multiReduction .add [1] S10 (mulf C C) 0x00000000#32 reduces_S10x128_S10 (.inl rfl) rfl (ix1 q)) = _
    exact congrArg Ideal.sqrt (Cert.LibKeepdims.rowSum_apply (mulf C C) reduces_S10x128_S10 (.inl rfl) rfl q)

theorem kRowMax_apply (Y : FVec Ideal S10000x10 .f32) (r : Fin 10000) (q : Fin 10) :
    kRowMax Y (ix2 r q) = Cert.Spec.rowMax Y r := by
  unfold kRowMax
  refine (Cert.LibKeepdims.broadcastTo_a1_ab_apply _ broadcasts_S10000x1_S10000x10 r q).trans ?_
  refine (Cert.LibKeepdims.shapeCast_a_a1_apply _ shapeCasts_S10000_S10000x1 r 0).trans ?_
  exact Cert.LibRowOps.rowMax_apply Y 0xFF800000#32 reduces_S10000x10_S10000 (.inl rfl) rfl r

theorem kRowSum_apply (Y : FVec Ideal S10000x10 .f32) (r : Fin 10000) (q : Fin 10) :
    kRowSum Y (ix2 r q) = ∑ k : Fin 10, Y (ix2 r k) := by
  unfold kRowSum
  refine (Cert.LibKeepdims.broadcastTo_a1_ab_apply _ broadcasts_S10000x1_S10000x10 r q).trans ?_
  refine (Cert.LibKeepdims.shapeCast_a_a1_apply _ shapeCasts_S10000_S10000x1 r 0).trans ?_
  exact Cert.LibKeepdims.rowSum_apply Y reduces_S10000x10_S10000 (.inl rfl) rfl r

theorem kSoftmax_eq (Y : FVec Ideal S10000x10 .f32) : kSoftmax Y = Cert.Spec.softmaxRows Y := by
  funext j
  obtain ⟨r, q, rfl⟩ : ∃ (r : Fin 10000) (q : Fin 10), j = ix2 r q := ⟨j 0, j 1, eq_ix2 j⟩
  rw [Cert.Spec.softmaxRows_ix2]
  unfold kSoftmax
  rw [divf_apply, kRowSum_apply]
  show Ideal.div (Ideal.exp (Y (ix2 r q) - kRowMax Y (ix2 r q))) (∑ k : Fin 10, Ideal.exp (Y (ix2 r k) - kRowMax Y (ix2 r k))) = _
  rw [kRowMax_apply]
  refine congrArg (Ideal.div _) (Finset.sum_congr rfl fun k _ => ?_)
  rw [kRowMax_apply]

/-- The similarities. -/
theorem pay4_eq (x0 : FVec Ideal S10000x128 .f32) (x2 : FVec Ideal S128x128 .f32) (x3 : FVec Ideal S1x128 .f32)
    (x5 : FVec Ideal S10x128 .f32) :
    k0_pay4 (F := Ideal) x0 x2 x3 x5 = Cert.Spec.softmaxRows (Cert.Spec.cosine (Cert.Dense.biased x0 x2 x3) x5) := by
  rw [pay4_spelt, kSoftmax_eq, kCosine_eq, pay2_eq]

end Cert.KernelIdeal.Spell

end
-- ==== Proof.IdealArrays.lean ====
/-
  What the idealized kernel's two output arrays hold after the run.

  The first output is written back block by block: point t writes rows 400 t … 400 t + 399, and row r of the array is
  row r mod 400 of block r / 400, which holds tanh of that row of the adjacency matrix times z W₂. The second output is
  written back once, whole, by the last point, and holds the similarities.
-/
import proofs.«147089_g55181739819284_cont_9to1_m_1118_3_alg».proof.Proof.IdealFrame
import proofs.«147089_g55181739819284_cont_9to1_m_1118_3_alg».proof.Proof.KernelSpell
import Idealize.ShloMosaic.Lib.StableHlo.Run

set_option maxRecDepth 16384

noncomputable section

open scoped BigOperators

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The block indices, decided over the grid -/

theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = 0 ∧ win0_7.index t (1 : Fin 2) = 0 :=
  (by decide +kernel : ∀ t : Fin grid0.N, _)

/-! ## A window whose block is its whole array reads the array -/

theorem iblk0_eq (c : Dev nD) (t : Fin cfg0.N) : (iblk m c 0 t : S10000x128.Idx → EReal) = V m c main_v0 := by
  obtain ⟨e0, e1, -⟩ := idx_facts t
  unfold iblk
  funext j
  show V m c main_v0 (((cfg0.win 0).blk t).view.emb j) = V m c main_v0 j
  refine congrArg _ (funext fun a => Fin.ext ?_)
  match a with
  | ⟨0, _⟩ => show win0_0.index t (0 : Fin 2) * 10000 + 1 * (j 0).val = (j 0).val; rw [e0]; omega
  | ⟨1, _⟩ => show win0_0.index t (1 : Fin 2) * 128 + 1 * (j 1).val = (j 1).val; rw [e1]; omega

theorem iblk2_eq (c : Dev nD) (t : Fin cfg0.N) : (iblk m c 2 t : S128x128.Idx → EReal) = V m c main_arg2 := by
  obtain ⟨-, -, -, -, e0, e1, -⟩ := idx_facts t
  unfold iblk
  funext j
  show V m c main_arg2 (((cfg0.win 2).blk t).view.emb j) = V m c main_arg2 j
  refine congrArg _ (funext fun a => Fin.ext ?_)
  match a with
  | ⟨0, _⟩ => show win0_2.index t (0 : Fin 2) * 128 + 1 * (j 0).val = (j 0).val; rw [e0]; omega
  | ⟨1, _⟩ => show win0_2.index t (1 : Fin 2) * 128 + 1 * (j 1).val = (j 1).val; rw [e1]; omega

theorem iblk3_eq (c : Dev nD) (t : Fin cfg0.N) : (iblk m c 3 t : S1x128.Idx → EReal) = V m c main_v2 := by
  obtain ⟨-, -, -, -, -, -, e0, e1, -⟩ := idx_facts t
  unfold iblk
  funext j
  show V m c main_v2 (((cfg0.win 3).blk t).view.emb j) = V m c main_v2 j
  refine congrArg _ (funext fun a => Fin.ext ?_)
  match a with
  | ⟨0, _⟩ => show win0_3.index t (0 : Fin 2) * 1 + 1 * (j 0).val = (j 0).val; rw [e0]; omega
  | ⟨1, _⟩ => show win0_3.index t (1 : Fin 2) * 128 + 1 * (j 1).val = (j 1).val; rw [e1]; omega

theorem iblk4_eq (c : Dev nD) (t : Fin cfg0.N) : (iblk m c 4 t : S128x128.Idx → EReal) = V m c main_arg4 := by
  obtain ⟨-, -, -, -, -, -, -, -, e0, e1, -⟩ := idx_facts t
  unfold iblk
  funext j
  show V m c main_arg4 (((cfg0.win 4).blk t).view.emb j) = V m c main_arg4 j
  refine congrArg _ (funext fun a => Fin.ext ?_)
  match a with
  | ⟨0, _⟩ => show win0_4.index t (0 : Fin 2) * 128 + 1 * (j 0).val = (j 0).val; rw [e0]; omega
  | ⟨1, _⟩ => show win0_4.index t (1 : Fin 2) * 128 + 1 * (j 1).val = (j 1).val; rw [e1]; omega

theorem iblk5_eq (c : Dev nD) (t : Fin cfg0.N) : (iblk m c 5 t : S10x128.Idx → EReal) = V m c main_arg5 := by
  obtain ⟨-, -, -, -, -, -, -, -, -, -, e0, e1, -⟩ := idx_facts t
  unfold iblk
  funext j
  show V m c main_arg5 (((cfg0.win 5).blk t).view.emb j) = V m c main_arg5 j
  refine congrArg _ (funext fun a => Fin.ext ?_)
  match a with
  | ⟨0, _⟩ => show win0_5.index t (0 : Fin 2) * 10 + 1 * (j 0).val = (j 0).val; rw [e0]; omega
  | ⟨1, _⟩ => show win0_5.index t (1 : Fin 2) * 128 + 1 * (j 1).val = (j 1).val; rw [e1]; omega

/-- Row p of the adjacency block at point t is row 400 t + p of the matrix. -/
theorem iblk1_apply (c : Dev nD) (t : Fin cfg0.N) (p : Fin 400) (k : Fin 10000) (r : Fin 10000) (hr : r.val = 400 * t.val + p.val) :
    iblk m c 1 t (ix2 p k) = V m c main_v1 (ix2 r k) := by
  obtain ⟨-, -, e0, e1, -⟩ := idx_facts t
  unfold iblk
  show V m c main_v1 (((cfg0.win 1).blk t).view.emb (ix2 p k)) = V m c main_v1 (ix2 r k)
  refine congrArg _ (funext fun a => Fin.ext ?_)
  match a with
  | ⟨0, _⟩ => show win0_1.index t (0 : Fin 2) * 400 + 1 * p.val = r.val; rw [e0]; omega
  | ⟨1, _⟩ => show win0_1.index t (1 : Fin 2) * 10000 + 1 * k.val = k.val; rw [e1]; omega

/-! ## The first output: tanh of the adjacency matrix times z W₂ -/

/-- A block of 400 rows of the product is the product of the block: over plain arrays and indices. -/
theorem hidden_block (A : S10000x10000.Idx → EReal) (s : FVec Ideal S10000x128 .f32) (x1 : FVec Ideal S400x10000 .f32) (b : ℕ)
    (hx : ∀ (p : Fin 400) (k : Fin 10000) (r : Fin 10000), r.val = 400 * b + p.val → x1 (ix2 p k) = A (ix2 r k))
    (j : S400x128.Idx) (i : S10000x128.Idx) (hi0 : (i 0).val = 400 * b + (j 0).val) (hi1 : (i 1).val = (j 1).val) :
    k0_pay1 (F := Ideal) x1 s j = Cert.Spec.tanhProd A s i := by
  obtain ⟨p, q, rfl⟩ : ∃ (p : Fin 400) (q : Fin 128), j = ix2 p q := ⟨j 0, j 1, eq_ix2 j⟩
  obtain ⟨r, q', rfl⟩ : ∃ (r : Fin 10000) (q' : Fin 128), i = ix2 r q' := ⟨i 0, i 1, eq_ix2 i⟩
  have hr : r.val = 400 * b + p.val := hi0
  obtain rfl : q' = q := Fin.ext hi1
  rw [Cert.KernelIdeal.Spell.pay1_apply, Cert.Spec.tanhProd_ix2]
  refine congrArg Ideal.tanh (Finset.sum_congr rfl fun k _ => ?_)
  rw [hx p k r hr]

/-- What point t writes back of the first output is block t of the whole function. -/
theorem flushed6_eq (c : Dev nD) (t : Fin cfg0.N) :
    (dats m 0 c).flushed 6 t = ((cfg0.win 6).blk t).view.read (Elt Ideal) (Cert.Spec.tanhProd (V m c main_v1) (support m c)) := by
  obtain ⟨-, -, -, -, -, -, -, -, -, -, -, -, e0, e1, -⟩ := idx_facts t
  show (cfg0.win 6).cut (grid0.coords t) ((dats m 0 c).after 6 t) = _
  rw [after6]
  funext j
  show k0_pay1 (F := Ideal) (iblk m c 1 t) (support m c) j = Cert.Spec.tanhProd (V m c main_v1) (support m c) (((cfg0.win 6).blk t).view.emb j)
  refine hidden_block (V m c main_v1) (support m c) (iblk m c 1 t) t.val (fun p k r hr => iblk1_apply m c t p k r hr) j _ ?_ ?_
  · show win0_6.index t (0 : Fin 2) * 400 + 1 * (j 0).val = 400 * t.val + (j 0).val; rw [e0]; omega
  · show win0_6.index t (1 : Fin 2) * 128 + 1 * (j 1).val = (j 1).val; rw [e1]; omega

theorem mem_blk6 (t : Fin cfg0.N) (i : S10000x128.Idx) :
    i ∈ ((cfg0.win 6).blk t).view.set ↔ ∀ a : Fin 2, win0_6.index t a * S400x128.size a ≤ (i a).val ∧ (i a).val < win0_6.index t a * S400x128.size a + S400x128.size a := by
  show i ∈ ((View.whole main_v3_0).slice (win0_6.rect t)).set ↔ _
  rw [View.set_slice_whole, Rect.mem_set_unit]
  exact Iff.rfl

/-- Row r lies in the block of point r / 400. -/
theorem cover6 (i : S10000x128.Idx) : ∃ t : Fin cfg0.N, (cfg0.win 6).flush t = true ∧ i ∈ ((cfg0.win 6).blk t).view.set := by
  have h0 : (i 0).val < 10000 := (i 0).isLt
  have h1 : (i 1).val < 128 := (i 1).isLt
  have hN : (i 0).val / 400 < cfg0.N := by rw [show cfg0.N = 25 from N_0]; omega
  obtain ⟨-, -, -, -, -, -, -, -, -, -, -, -, e0, e1, -⟩ := idx_facts ⟨(i 0).val / 400, hN⟩
  refine ⟨⟨(i 0).val / 400, hN⟩, flush0_6 _, ?_⟩
  rw [mem_blk6]
  intro a
  match a with
  | ⟨0, _⟩ =>
    show win0_6.index ⟨(i 0).val / 400, hN⟩ (0 : Fin 2) * 400 ≤ (i 0).val ∧ (i 0).val < win0_6.index ⟨(i 0).val / 400, hN⟩ (0 : Fin 2) * 400 + 400
    rw [e0]; show (i 0).val / 400 * 400 ≤ (i 0).val ∧ (i 0).val < (i 0).val / 400 * 400 + 400; omega
  | ⟨1, _⟩ =>
    show win0_6.index ⟨(i 0).val / 400, hN⟩ (1 : Fin 2) * 128 ≤ (i 1).val ∧ (i 1).val < win0_6.index ⟨(i 0).val / 400, hN⟩ (1 : Fin 2) * 128 + 128
    rw [e1]; omega

/-- The first output array after the run. -/
theorem final6 (c : Dev nD) : (dats m 0 c).arrAt 6 cfg0.N = Cert.Spec.tanhProd (V m c main_v1) (support m c) :=
  (dats m 0 c).arrAt_eq_of_cover 6 _ (fun t _ => flushed6_eq m c t) cover6

/-! ## The second output: the similarities, written back whole by the last point -/

theorem flushed7_eq (c : Dev nD) (t : Fin cfg0.N) :
    (dats m 0 c).flushed 7 t = ((cfg0.win 7).blk t).view.read (Elt Ideal) (sims m c) := by
  obtain ⟨-, -, -, -, -, -, -, -, -, -, -, -, -, -, e0, e1⟩ := idx_facts t
  show (cfg0.win 7).cut (grid0.coords t) ((dats m 0 c).after 7 t) = _
  rw [after7]
  funext j
  show sims m c j = sims m c (((cfg0.win 7).blk t).view.emb j)
  refine congrArg _ (funext fun a => Fin.ext ?_)
  match a with
  | ⟨0, _⟩ => show (j 0).val = win0_7.index t (0 : Fin 2) * 10000 + 1 * (j 0).val; rw [e0]; omega
  | ⟨1, _⟩ => show (j 1).val = win0_7.index t (1 : Fin 2) * 10 + 1 * (j 1).val; rw [e1]; omega

theorem mem_blk7 (t : Fin cfg0.N) (i : S10000x10.Idx) :
    i ∈ ((cfg0.win 7).blk t).view.set ↔ ∀ a : Fin 2, win0_7.index t a * S10000x10.size a ≤ (i a).val ∧ (i a).val < win0_7.index t a * S10000x10.size a + S10000x10.size a := by
  show i ∈ ((View.whole main_v3_1).slice (win0_7.rect t)).set ↔ _
  rw [View.set_slice_whole, Rect.mem_set_unit]
  exact Iff.rfl

theorem cover7 (i : S10000x10.Idx) : ∃ t : Fin cfg0.N, (cfg0.win 7).flush t = true ∧ i ∈ ((cfg0.win 7).blk t).view.set := by
  have h0 : (i 0).val < 10000 := (i 0).isLt
  have h1 : (i 1).val < 10 := (i 1).isLt
  have hN : 24 < cfg0.N := by rw [show cfg0.N = 25 from N_0]; omega
  obtain ⟨-, -, -, -, -, -, -, -, -, -, -, -, -, -, e0, e1⟩ := idx_facts ⟨24, hN⟩
  refine ⟨⟨24, hN⟩, (flush0_7 _).mpr rfl, ?_⟩
  rw [mem_blk7]
  intro a
  match a with
  | ⟨0, _⟩ =>
    show win0_7.index ⟨24, hN⟩ (0 : Fin 2) * 10000 ≤ (i 0).val ∧ (i 0).val < win0_7.index ⟨24, hN⟩ (0 : Fin 2) * 10000 + 10000
    rw [e0]; omega
  | ⟨1, _⟩ =>
    show win0_7.index ⟨24, hN⟩ (1 : Fin 2) * 10 ≤ (i 1).val ∧ (i 1).val < win0_7.index ⟨24, hN⟩ (1 : Fin 2) * 10 + 10
    rw [e1]; omega

/-- The second output array after the run. -/
theorem final7 (c : Dev nD) : (dats m 0 c).arrAt 7 cfg0.N = sims m c :=
  (dats m 0 c).arrAt_eq_of_cover 7 _ (fun t _ => flushed7_eq m c t) cover7

/-! ## The arrays the host wrote before the region -/

theorem V_v0 (c : Dev nD) : (V m c main_v0 : S10000x128.Idx → EReal)
    = shapeCast S10000x128 (m ((c : Thread nD τ).loc main_arg0)) shapeCasts_S1x10000x128_S10000x128 := by
  dsimp only [V, hostOps0]; after_results; rfl

theorem V_v1 (c : Dev nD) : (V m c main_v1 : S10000x10000.Idx → EReal)
    = shapeCast S10000x10000 (m ((c : Thread nD τ).loc main_arg1)) shapeCasts_S1x10000x10000_S10000x10000 := by
  dsimp only [V, hostOps0]; after_results; rfl

theorem V_v2 (c : Dev nD) : (V m c main_v2 : S1x128.Idx → EReal)
    = shapeCast S1x128 (m ((c : Thread nD τ).loc main_arg3)) shapeCasts_S128_S1x128 := by
  dsimp only [V, hostOps0]; after_results; rfl

/-! ## The two results in closed form -/

/-- The hidden layer of the arguments. -/
def hiddenLayer (c : Dev nD) : S10000x128.Idx → EReal :=
  Cert.Dense.biased (shapeCast S10000x128 (m ((c : Thread nD τ).loc main_arg0)) shapeCasts_S1x10000x128_S10000x128)
    (m ((c : Thread nD τ).loc main_arg2)) (shapeCast S1x128 (m ((c : Thread nD τ).loc main_arg3)) shapeCasts_S128_S1x128)

theorem support_eq (c : Dev nD) : support m c = Cert.Dense.prod (hiddenLayer m c) (m ((c : Thread nD τ).loc main_arg4)) := by
  unfold support supportAt hiddenLayer
  rw [iblk0_eq, iblk2_eq, iblk3_eq, iblk4_eq, V_v0, V_v2, V_main_arg2, V_main_arg4]
  exact Cert.KernelIdeal.Spell.pay3_eq _ _ _ _

theorem sims_eq (c : Dev nD) : sims m c = Cert.Spec.softmaxRows (Cert.Spec.cosine (hiddenLayer m c) (m ((c : Thread nD τ).loc main_arg5))) := by
  unfold sims simsAt hiddenLayer
  rw [iblk0_eq, iblk2_eq, iblk3_eq, iblk5_eq, V_v0, V_v2, V_main_arg2, V_main_arg5]
  exact Cert.KernelIdeal.Spell.pay4_eq _ _ _ _

/-- The run, with both results named and the arguments kept. -/
theorem run_named : θ_run defs (onTc (τ := τ) (main (F := Ideal))) ⟨m, fun _ => 0, ρ⟩ (fun r => ∀ c : Dev nD,
      r.2.mem ((c.tc : Thread nD τ).loc main_v3_0)
        = Cert.Spec.tanhProd (shapeCast S10000x10000 (m ((c : Thread nD τ).loc main_arg1)) shapeCasts_S1x10000x10000_S10000x10000)
            (Cert.Dense.prod (hiddenLayer m c) (m ((c : Thread nD τ).loc main_arg4)))
      ∧ r.2.mem ((c.tc : Thread nD τ).loc main_v3_1)
        = Cert.Spec.softmaxRows (Cert.Spec.cosine (hiddenLayer m c) (m ((c : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 6).trans ((final6 m c).trans (by rw [V_v1, support_eq])),
      ((h c).1 7).trans ((final7 m c).trans (sims_eq m c)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main (F := Ideal) m ρ)

end Cert.KernelIdeal.Body

end
-- ==== Proof.RefSpell.lean ====
/-
  The reference's two results, read over the extended reals, are the specification's functions of its arguments.
-/
import proofs.«147089_g55181739819284_cont_9to1_m_1118_3_alg».proof.Proof.Gen.ReferenceIdeal.Run
import proofs.«147089_g55181739819284_cont_9to1_m_1118_3_alg».proof.Proof.Spec
import proofs.«147089_g55181739819284_cont_9to1_m_1118_3_alg».proof.Proof.LibRowOps
import Idealize.ShloMosaic.Lib.ValueLayout

noncomputable section

open scoped BigOperators

namespace Cert.ReferenceIdeal.Spell

open Cert.ReferenceIdeal Cert.ReferenceIdeal.Gen Cert.ReferenceIdeal.Value
open Idealize.ShloMosaic Idealize.ShloMosaic.TcCoe Idealize.ShloMosaic.ValueIdx Idealize.SL.Sem

/-! ## Host layout steps read at an entry -/

/-- A vector laid out as a column by broadcast_in_dim along axis 0 reads, at (r, u), the vector at r. -/
theorem vec_col_apply {α : Type} {a : ℕ} (x : (⟨1, ![a]⟩ : Shape).Idx → α)
    (hb : (⟨1, ![a]⟩ : Shape).BroadcastsInDim ⟨2, ![a, 1]⟩ ![0]) (r : Fin a) (u : Fin 1) :
    broadcastInDim ⟨2, ![a, 1]⟩ ![0] hb x (ix2 r u) = x (ix1 r) := by
  refine broadcastInDim_apply ![0] hb x (ix2 r u) (ix1 r) fun ax => ?_
  match ax with
  | ⟨0, _⟩ =>
    show r.val = if a = 1 then 0 else r.val
    split
    · have := r.isLt; omega
    · rfl

/-- A scalar spread over a shape reads the scalar everywhere. -/
theorem scalar_spread_apply {α : Type} {s : Shape} (x : (⟨0, ![]⟩ : Shape).Idx → α) (dims : Fin 0 → Fin s.rank)
    (hb : (⟨0, ![]⟩ : Shape).BroadcastsInDim s dims) (i : s.Idx) : broadcastInDim s dims hb x i = x ix0 :=
  broadcastInDim_apply dims hb x i ix0 fun ax => ax.elim0

/-- The host's sum along the second axis from the zero word, read at row r: the sum of the row's entries. -/
theorem hostRowSum_apply {m n : ℕ} (X : FVec Ideal ⟨2, ![m, n]⟩ .f32)
    (h' : (⟨2, ![m, n]⟩ : Shape).ReducesTo [1] (⟨1, ![m]⟩ : Shape)) (h : (⟨2, ![m, n]⟩ : Shape).Reduces [1] (⟨1, ![m]⟩ : Shape))
    (hu : 0 < (⟨0, ![]⟩ : Shape).numel) (r : Fin m) :
    Host.reduceAdd X (constant (F := Ideal) ⟨0, ![]⟩ .f32 0x00000000#32) h' hu (ix1 r) = ∑ k : Fin n, X (ix2 r k) := by
  simp only [Host.reduceAdd, Ideal.hostReduceAdd_def]
  refine (Ideal.hostReduceAdd_single h' h X _ (ix1 r)).trans ?_
  rw [constant_apply, Ideal.ofBits_zero_f32, zero_add]
  exact Finset.sum_congr rfl fun k _ => congrArg X (Cert.LibKeepdims.lift_cols h r k)

/-! ## The hidden layer, its product with the second weight, and the first result -/

/-- The reference's hidden layer z = x W₁ + b of plain arrays. -/
def hHidden (X : FVec Ideal S10000x128 .f32) (W : FVec Ideal S128x128 .f32) (b : FVec Ideal S128 .f32) : FVec Ideal S10000x128 .f32 :=
  addf (Host.dotGeneral dot_S10000x128_S128x128_S10000x128_1_0_0_1_n_n none X W)
    (broadcastInDim S10000x128 ![0, 1] bcast_S1x128_S10000x128_0_1 (broadcastInDim S1x128 ![1] bcast_S128_S1x128_1 b))

theorem hHidden_eq (X : FVec Ideal S10000x128 .f32) (W : FVec Ideal S128x128 .f32) (b : FVec Ideal S128 .f32)
    (hc : S128.ShapeCasts S1x128) : hHidden X W b = Cert.Dense.biased X W (shapeCast S1x128 b hc) := by
  unfold hHidden
  rw [Cert.Dense.row_cast_eq_bcast b hc bcast_S128_S1x128_1]
  exact (Cert.Dense.biased_eq_host dot_S10000x128_S128x128_S10000x128_1_0_0_1_n_n rfl rfl rfl rfl rfl rfl X W _ bcast_S1x128_S10000x128_0_1).symm

/-- tanh of the adjacency matrix times z W₂, as the reference spells it. -/
theorem hTanhProd_eq (A : FVec Ideal S10000x10000 .f32) (Z : FVec Ideal S10000x128 .f32) (W : FVec Ideal S128x128 .f32) :
    Host.tanh (Host.dotGeneral dot_S10000x10000_S10000x128_S10000x128_1_0_0_1_n_n none A
        (Host.dotGeneral dot_S10000x128_S128x128_S10000x128_1_0_0_1_n_n none Z W))
      = Cert.Spec.tanhProd A (Cert.Dense.prod Z W) := by
  rw [Cert.Dense.dotGeneral_eq_prod dot_S10000x128_S128x128_S10000x128_1_0_0_1_n_n rfl rfl rfl rfl rfl rfl Z W]
  funext j
  obtain ⟨r, q, rfl⟩ : ∃ (r : Fin 10000) (q : Fin 128), j = ix2 r q := ⟨j 0, j 1, eq_ix2 j⟩
  rw [Cert.Spec.tanhProd_ix2]
  show Ideal.tanh (Host.dotGeneral dot_S10000x10000_S10000x128_S10000x128_1_0_0_1_n_n none A _ (ix2 r q)) = _
  exact congrArg Ideal.tanh (Cert.LibDotsNT.plain_dotGeneral_apply dot_S10000x10000_S10000x128_S10000x128_1_0_0_1_n_n rfl rfl rfl rfl rfl rfl none .single A _ r q)

/-! ## The similarities -/

/-- The reference's spelling of the guarded cosine. -/
def hCosine (Z : FVec Ideal S10000x128 .f32) (C : FVec Ideal S10x128 .f32) : FVec Ideal S10000x10 .f32 :=
  Host.divf (Host.dotGeneral dot_S10000x128_S128x10_S10000x10_1_0_0_1_n_n none Z (transpose S128x10 [1, 0] C transposes_S10x128_S128x10_1_0))
    (maximumf
      (mulf
        (broadcastInDim S10000x10 ![0, 1] bcast_S10000x1_S10000x10_0_1 (Host.sqrt (broadcastInDim S10000x1 ![0] bcast_S10000_S10000x1_0 (Host.reduceAdd (mulf Z Z) (constant S_ .f32 0x00000000#32) reducesTo_S10000x128_S10000_d1 h_S_))))
        (broadcastInDim S10000x10 ![0, 1] bcast_S1x10_S10000x10_0_1 (transpose S1x10 [1, 0] (Host.sqrt (broadcastInDim S10x1 ![0] bcast_S10_S10x1_0 (Host.reduceAdd (mulf C C) (constant S_ .f32 0x00000000#32) reducesTo_S10x128_S10_d1 h_S_))) transposes_S10x1_S1x10_1_0)))
      (broadcastInDim S10000x10 ![] bcast_S_S10000x10 (constant S_ .f32 0x322BCC77#32)))

/-- The reference's spelling of a row maximum laid back over the row. -/
def hRowMax (Y : FVec Ideal S10000x10 .f32) : FVec Ideal S10000x10 .f32 :=
  broadcastInDim S10000x10 ![0, 1] bcast_S10000x1_S10000x10_0_1 (broadcastInDim S10000x1 ![0] bcast_S10000_S10000x1_0
    (maximumf (broadcastInDim S10000 ![] bcast_S_S10000 (constant S_ .f32 0xFF800000#32))
      (Host.reduce FloatOps.maximumf Y (constant S_ .f32 0xFF800000#32) reducesTo_S10000x10_S10000_d1 h_S_)))

/-- The reference's spelling of a row sum laid back over the row. -/
def hRowSum (Y : FVec Ideal S10000x10 .f32) : FVec Ideal S10000x10 .f32 :=
  broadcastInDim S10000x10 ![0, 1] bcast_S10000x1_S10000x10_0_1 (broadcastInDim S10000x1 ![0] bcast_S10000_S10000x1_0
    (Host.reduceAdd Y (constant S_ .f32 0x00000000#32) reducesTo_S10000x10_S10000_d1 h_S_))

/-- The reference's spelling of the softmax of each row. -/
def hSoftmax (Y : FVec Ideal S10000x10 .f32) : FVec Ideal S10000x10 .f32 :=
  Host.divf (Host.exp (subf Y (hRowMax Y))) (hRowSum (Host.exp (subf Y (hRowMax Y))))

theorem hCosine_eq (Z : FVec Ideal S10000x128 .f32) (C : FVec Ideal S10x128 .f32) : hCosine Z C = Cert.Spec.cosine Z C := by
  funext j
  obtain ⟨r, q, rfl⟩ : ∃ (r : Fin 10000) (q : Fin 10), j = ix2 r q := ⟨j 0, j 1, eq_ix2 j⟩
  rw [Cert.Spec.cosine_ix2]
  unfold hCosine
  show Ideal.div _ (max (_ * _) _) = _
  refine congrArg₂ Ideal.div ?_ (congrArg₂ max (congrArg₂ (· * ·) ?_ ?_) ?_)
  · refine (Cert.LibDotsNT.plain_dotGeneral_apply dot_S10000x128_S128x10_S10000x10_1_0_0_1_n_n rfl rfl rfl rfl rfl rfl none .single Z _ r q).trans ?_
    exact Finset.sum_congr rfl fun k _ => congrArg (Z (ix2 r k) * ·) (transpose_ix2_apply C transposes_S10x128_S128x10_1_0 k q)
  · refine (Cert.Dense.bcast_col_apply _ bcast_S10000x1_S10000x10_0_1 r q).trans ?_
    show Ideal.sqrt _ = _
    refine congrArg Ideal.sqrt ?_
    refine (vec_col_apply _ bcast_S10000_S10000x1_0 r 0).trans ?_
    exact hostRowSum_apply (mulf Z Z) reducesTo_S10000x128_S10000_d1 (by decide) h_S_ r
  · refine (Cert.Dense.bcast_row_apply _ bcast_S1x10_S10000x10_0_1 r q).trans ?_
    refine (transpose_ix2_apply _ transposes_S10x1_S1x10_1_0 (0 : Fin 1) q).trans ?_
    show Ideal.sqrt _ = _
    refine congrArg Ideal.sqrt ?_
    refine (vec_col_apply _ bcast_S10_S10x1_0 q 0).trans ?_
    exact hostRowSum_apply (mulf C C) reducesTo_S10x128_S10_d1 (by decide) h_S_ q
  · exact scalar_spread_apply _ _ bcast_S_S10000x10 (ix2 r q)

theorem hRowMax_apply (Y : FVec Ideal S10000x10 .f32) (r : Fin 10000) (q : Fin 10) :
    hRowMax Y (ix2 r q) = Cert.Spec.rowMax Y r := by
  unfold hRowMax
  refine (Cert.Dense.bcast_col_apply _ bcast_S10000x1_S10000x10_0_1 r q).trans ?_
  refine (vec_col_apply _ bcast_S10000_S10000x1_0 r 0).trans ?_
  show max _ (Host.reduce FloatOps.maximumf Y (constant (F := Ideal) S_ .f32 0xFF800000#32) reducesTo_S10000x10_S10000_d1 h_S_ (ix1 r)) = _
  rw [Cert.LibRowOps.hostRowMax_apply Y _ reducesTo_S10000x10_S10000_d1 (by decide) h_S_ r]
  refine (congrArg (max · _) (scalar_spread_apply _ _ bcast_S_S10000 (ix1 r))).trans ?_
  refine max_eq_right ?_
  exact (Finset.le_fold_max _).mpr (Or.inl (le_refl _))

theorem hRowSum_apply (Y : FVec Ideal S10000x10 .f32) (r : Fin 10000) (q : Fin 10) :
    hRowSum Y (ix2 r q) = ∑ k : Fin 10, Y (ix2 r k) := by
  unfold hRowSum
  refine (Cert.Dense.bcast_col_apply _ bcast_S10000x1_S10000x10_0_1 r q).trans ?_
  refine (vec_col_apply _ bcast_S10000_S10000x1_0 r 0).trans ?_
  exact hostRowSum_apply Y reducesTo_S10000x10_S10000_d1 (by decide) h_S_ r

theorem hSoftmax_eq (Y : FVec Ideal S10000x10 .f32) : hSoftmax Y = Cert.Spec.softmaxRows Y := by
  funext j
  obtain ⟨r, q, rfl⟩ : ∃ (r : Fin 10000) (q : Fin 10), j = ix2 r q := ⟨j 0, j 1, eq_ix2 j⟩
  rw [Cert.Spec.softmaxRows_ix2]
  unfold hSoftmax
  show Ideal.div (Ideal.exp (Y (ix2 r q) - hRowMax Y (ix2 r q))) (hRowSum (Host.exp (subf Y (hRowMax Y))) (ix2 r q)) = _
  rw [hRowSum_apply, hRowMax_apply]
  refine congrArg (Ideal.div _) (Finset.sum_congr rfl fun k _ => ?_)
  show Ideal.exp (Y (ix2 r k) - hRowMax Y (ix2 r k)) = _
  rw [hRowMax_apply]

/-! ## The run's two terms -/

/-- The reference's second result is the softmax of the cosine of its hidden layer with the cluster rows. -/
theorem res_spelt (m : (ℓ : Loc nD τ sig) → Buf (Elt Ideal) ℓ) (c : Dev nD) :
    res_main_v30 (F := Ideal) m c
      = hSoftmax (hCosine (hHidden (shapeCast _ (m ((c.tc : Thread nD τ).loc main_arg0)) shapeCasts_S1x10000x128_S10000x128)
          (m ((c.tc : Thread nD τ).loc main_arg2)) (m ((c.tc : Thread nD τ).loc main_arg3))) (m ((c.tc : Thread nD τ).loc main_arg5))) := by
  unfold res_main_v30 hSoftmax hRowSum hRowMax hCosine hHidden
  rfl

/-- The reference's first result in closed form. -/
theorem first_eq (X0 : FVec Ideal S1x10000x128 .f32) (X1 : FVec Ideal S1x10000x10000 .f32) (W1 : FVec Ideal S128x128 .f32)
    (b : FVec Ideal S128 .f32) (W2 : FVec Ideal S128x128 .f32) (hc : S128.ShapeCasts S1x128) :
    Host.tanh (Host.dotGeneral dot_S10000x10000_S10000x128_S10000x128_1_0_0_1_n_n none (shapeCast _ X1 shapeCasts_S1x10000x10000_S10000x10000)
        (Host.dotGeneral dot_S10000x128_S128x128_S10000x128_1_0_0_1_n_n none
          (addf (Host.dotGeneral dot_S10000x128_S128x128_S10000x128_1_0_0_1_n_n none (shapeCast _ X0 shapeCasts_S1x10000x128_S10000x128) W1)
            (broadcastInDim S10000x128 ![0, 1] bcast_S1x128_S10000x128_0_1 (broadcastInDim S1x128 ![1] bcast_S128_S1x128_1 b))) W2))
      = Cert.Spec.tanhProd (shapeCast S10000x10000 X1 shapeCasts_S1x10000x10000_S10000x10000)
          (Cert.Dense.prod (Cert.Dense.biased (shapeCast S10000x128 X0 shapeCasts_S1x10000x128_S10000x128) W1 (shapeCast S1x128 b hc)) W2) := by
  rw [← hHidden_eq _ _ _ hc]
  exact hTanhProd_eq _ _ _

/-- The reference's second result in closed form. -/
theorem second_eq (m : (ℓ : Loc nD τ sig) → Buf (Elt Ideal) ℓ) (c : Dev nD) (hc : S128.ShapeCasts S1x128) :
    res_main_v30 (F := Ideal) m c
      = Cert.Spec.softmaxRows (Cert.Spec.cosine
          (Cert.Dense.biased (shapeCast S10000x128 (m ((c.tc : Thread nD τ).loc main_arg0)) shapeCasts_S1x10000x128_S10000x128)
            (m ((c.tc : Thread nD τ).loc main_arg2)) (shapeCast S1x128 (m ((c.tc : Thread nD τ).loc main_arg3)) hc))
          (m ((c.tc : Thread nD τ).loc main_arg5))) := by
  rw [res_spelt, hSoftmax_eq, hCosine_eq, hHidden_eq _ _ _ hc]

end Cert.ReferenceIdeal.Spell

end
-- ==== Proof.lean ====
/-
  The certificate: the kernel and its reference compute the same two arrays over the extended reals.

  Both programs form the hidden layer z = x W₁ + b and the product z W₂, apply tanh to the adjacency matrix times z W₂,
  and take the softmax over the ten clusters of the cosine similarities of the rows of z with the cluster rows. The
  kernel does this in one pipeline of 25 grid points over blocks of 400 rows of the adjacency matrix: the first point
  also computes z W₂ into a scratch buffer, which every point then reads, and the similarities into the second output's
  buffer, which rests there until the last point writes it back.
-/
import proofs.«147089_g55181739819284_cont_9to1_m_1118_3_alg».proof.Defs
import proofs.«147089_g55181739819284_cont_9to1_m_1118_3_alg».proof.Proof.Gen.Kernel
import proofs.«147089_g55181739819284_cont_9to1_m_1118_3_alg».proof.Proof.Gen.KernelIdeal
import proofs.«147089_g55181739819284_cont_9to1_m_1118_3_alg».proof.Proof.Gen.ReferenceIdeal
import proofs.«147089_g55181739819284_cont_9to1_m_1118_3_alg».proof.Proof.Gen.ReferenceIdeal.Run
import proofs.«147089_g55181739819284_cont_9to1_m_1118_3_alg».proof.Proof.Gen.Pre_finite_inputs
import proofs.«147089_g55181739819284_cont_9to1_m_1118_3_alg».proof.Proof.WordFrame
import proofs.«147089_g55181739819284_cont_9to1_m_1118_3_alg».proof.Proof.IdealFrame
import proofs.«147089_g55181739819284_cont_9to1_m_1118_3_alg».proof.Proof.IdealArrays
import proofs.«147089_g55181739819284_cont_9to1_m_1118_3_alg».proof.Proof.RefSpell

noncomputable section

namespace Cert.Proof

open Idealize.ShloMosaic Idealize.ShloMosaic.TcCoe Idealize.SL.Sem

/-- The word-level kernel runs to its end and leaves its arguments as they were. -/
theorem frame_kernel [Cert.Kernel.Facts] [Cert.Pre_finite_inputs.Facts] : Cert.frame_Kernel :=
  fun m ρ _ => Cert.Kernel.Body.frame (F := Bits) m ρ

/-- So does the kernel read over the extended reals. -/
theorem frame_ideal [Cert.KernelIdeal.Facts] [Cert.Pre_finite_inputs.Facts] : Cert.frame_KernelIdeal :=
  fun m ρ _ => Cert.KernelIdeal.Body.frame (F := Ideal) m ρ

/-- The reference is host operations only: its run, with the results dropped. -/
theorem frame_reference [Cert.ReferenceIdeal.Facts] [Cert.Pre_finite_inputs.Facts] : Cert.frame_ReferenceIdeal :=
  fun m ρ _ => (θ_run Cert.ReferenceIdeal.defs _ _).mono (fun _ h c => (h c).2.2)
    (Cert.ReferenceIdeal.Value.run (F := Ideal) m ρ)

/-- Over the extended reals both programs end with tanh of the adjacency matrix times z W₂ and with the softmax of the
    guarded cosines of the rows of z with the cluster rows, z = x W₁ + b: the kernel by its run through the 25 grid
    points, the reference by its host operations, each read back entry by entry. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, _, Cert.KernelIdeal.Body.run_named m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Spell.first_eq _ _ _ _ _ (by decide), (hagree c).1, (hagree c).2.1, (hagree c).2.2.1,
      (hagree c).2.2.2.1, (hagree c).2.2.2.2.1]
    rfl
  · rw [Cert.ReferenceIdeal.Spell.second_eq m' c (by decide), (hagree c).1, (hagree c).2.2.1, (hagree c).2.2.2.1,
      (hagree c).2.2.2.2.2]
    rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
